-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x1 : Shape := ⟨2, ![600000, 1]⟩
abbrev S2x600000 : Shape := ⟨2, ![2, 600000]⟩
abbrev S2x100000 : Shape := ⟨2, ![2, 100000]⟩
abbrev S128x128 : Shape := ⟨2, ![128, 128]⟩
abbrev S128 : Shape := ⟨1, ![128]⟩
abbrev S257x128 : Shape := ⟨2, ![257, 128]⟩
abbrev S384x128 : Shape := ⟨2, ![384, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S257x128 : S_.BroadcastsInDim S257x128 (![] : Fin 0 → Fin S257x128.rank)
  reducesTo_S257x128_S_d0_1 : S257x128.ReducesTo [0, 1] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S384x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128 .f32) (main_arg8 : FVec F S257x128 .f32) (main_arg9 : FVec F S128 .f32) (main_arg10 : FVec F S384x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S257x128 .f32 := Host.absf main_arg8
  let main_cst_10 : FVec F S_ .f32 := constant S_ .f32 0x7F800000#32
  let main_v30 : FVec F S257x128 .f32 := broadcastInDim S257x128 ![] bcast_S_S257x128 main_cst_10
  let main_v31 : IVec S257x128 1 := cmpf .olt main_v29 main_v30
  let main_c_11 : IVec S_ 1 := constantI S_ 1 1#1
  let main_v32 : IVec S_ 1 := (fun x v => Host.reduce IntOp.andi x v reducesTo_S257x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S600000x1 .f32) (main_arg2 : IVec S2x600000 32) (main_arg3 : IVec S2x100000 32) (main_arg4 : FVec F S128x128 .f32) (main_arg5 : FVec F S128 .f32) (main_arg6 : FVec F S128x128 .f32) (main_arg7 : FVec F S128 .f32) (main_arg8 : FVec F S257x128 .f32) (main_arg9 : FVec F S128 .f32) (main_arg10 : FVec F S384x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x1 .f32 := Host.absf main_arg1
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S600000x1 : Shape := ⟨2, ![600000, 1]⟩
abbrev S2x600000 : Shape := ⟨2, ![2, 600000]⟩
abbrev S2x100000 : Shape := ⟨2, ![2, 100000]⟩
abbrev S128x128 : Shape := ⟨2, ![128, 128]⟩
abbrev S128 : Shape := ⟨1, ![128]⟩
abbrev S257x128 : Shape := ⟨2, ![257, 128]⟩
abbrev S384x128 : Shape := ⟨2, ![384, 128]⟩
abbrev S256x128 : Shape := ⟨2, ![256, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩
abbrev S1x100000 : Shape := ⟨2, ![1, 100000]⟩
abbrev S100000x1 : Shape := ⟨2, ![100000, 1]⟩
abbrev S1x1 : Shape := ⟨2, ![1, 1]⟩
abbrev S10000x1 : Shape := ⟨2, ![10000, 1]⟩
abbrev S10000x256 : Shape := ⟨2, ![10000, 256]⟩

abbrev nBuf : Space → Nat
  | .hbm => 165
  | .vmem => 34
  | .smem => 0
  | _ => 0

abbrev hbmTy0_0 (i : Nat) : BufTy := match i % 128 with
  | 0 => ⟨S100000x128, .f32⟩
  | 1 => ⟨S600000x1, .f32⟩
  | 2 => ⟨S2x600000, .i32⟩
  | 3 => ⟨S2x100000, .i32⟩
  | 4 => ⟨S128x128, .f32⟩
  | 5 => ⟨S128, .f32⟩
  | 6 => ⟨S128x128, .f32⟩
  | 7 => ⟨S128, .f32⟩
  | 8 => ⟨S257x128, .f32⟩
  | 9 => ⟨S128, .f32⟩
  | 10 => ⟨S384x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x1, .f32⟩
  | 19 => ⟨S1, .f32⟩
  | 20 => ⟨S1x600000, .i32⟩
  | 21 => ⟨S600000, .i32⟩
  | 22 => ⟨S1x600000, .i32⟩
  | 23 => ⟨S600000, .i32⟩
  | 24 => ⟨S100000, .i32⟩
  | 25 => ⟨S700000, .i32⟩
  | 26 => ⟨S700000, .i32⟩
  | 27 => ⟨S_, .f32⟩
  | 28 => ⟨S700000, .f32⟩
  | 29 => ⟨S_, .f32⟩
  | 30 => ⟨S100000, .f32⟩
  | 31 => ⟨S700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000, .f32⟩
  | 59 => ⟨S700000, .f32⟩
  | 60 => ⟨S100000x128, .f32⟩
  | 61 => ⟨S700000x1, .f32⟩
  | 62 => ⟨S_, .i32⟩
  | 63 => ⟨S700000, .i32⟩
  | 64 => ⟨S700000, .i1⟩
  | 65 => ⟨S_, .i32⟩
  | 66 => ⟨S700000, .i32⟩
  | 67 => ⟨S700000, .i32⟩
  | 68 => ⟨S700000, .i32⟩
  | 69 => ⟨S700000x1, .i32⟩
  | 70 => ⟨S700000x128, .f32⟩
  | 71 => ⟨S700000x128, .f32⟩
  | 72 => ⟨S700000x128, .f32⟩
  | 73 => ⟨S_, .f32⟩
  | 74 => ⟨S100000x128, .f32⟩
  | 75 => ⟨S700000x1, .i32⟩
  | 76 => ⟨S100000x128, .f32⟩
  | 77 => ⟨S1x128, .f32⟩
  | 78 => ⟨S100000x128, .f32⟩
  | 79 => ⟨S1x600000, .i32⟩
  | 80 => ⟨S600000, .i32⟩
  | 81 => ⟨S1x600000, .i32⟩
  | 82 => ⟨S600000, .i32⟩
  | 83 => ⟨S100000, .i32⟩
  | 84 => ⟨S700000, .i32⟩
  | 85 => ⟨S700000, .i32⟩
  | 86 => ⟨S_, .f32⟩
  | 87 => ⟨S700000, .f32⟩
  | 88 => ⟨S_, .f32⟩
  | 89 => ⟨S100000, .f32⟩
  | 90 => ⟨S700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S700000, .i32⟩
  | 102 => ⟨S700000, .i1⟩
  | 103 => ⟨S_, .i32⟩
  | 104 => ⟨S700000, .i32⟩
  | 105 => ⟨S700000, .i32⟩
  | 106 => ⟨S700000, .i32⟩
  | 107 => ⟨S700000x1, .i32⟩
  | 108 => ⟨S700000, .f32⟩
  | 109 => ⟨S_, .i32⟩
  | 110 => ⟨S700000, .i32⟩
  | 111 => ⟨S700000, .i1⟩
  | 112 => ⟨S_, .i32⟩
  | 113 => ⟨S700000, .i32⟩
  | 114 => ⟨S700000, .i32⟩
  | 115 => ⟨S700000, .i32⟩
  | 116 => ⟨S700000x1, .i32⟩
  | 117 => ⟨S700000, .f32⟩
  | 118 => ⟨S700000, .f32⟩
  | 119 => ⟨S100000x128, .f32⟩
  | 120 => ⟨S700000x1, .f32⟩
  | 121 => ⟨S_, .i32⟩
  | 122 => ⟨S700000, .i32⟩
  | 123 => ⟨S700000, .i1⟩
  | 124 => ⟨S_, .i32⟩
  | 125 => ⟨S700000, .i32⟩
  | 126 => ⟨S700000, .i32⟩
  | 127 => ⟨S700000, .i32⟩
  | _ => ⟨S100000x128, .f32⟩

abbrev hbmTy0_1 (i : Nat) : BufTy := match i % 128 with
  | 0 => ⟨S700000x1, .i32⟩
  | 1 => ⟨S700000x128, .f32⟩
  | 2 => ⟨S700000x128, .f32⟩
  | 3 => ⟨S700000x128, .f32⟩
  | 4 => ⟨S_, .f32⟩
  | 5 => ⟨S100000x128, .f32⟩
  | 6 => ⟨S700000x1, .i32⟩
  | 7 => ⟨S100000x128, .f32⟩
  | 8 => ⟨S1x128, .f32⟩
  | 9 => ⟨S100000x128, .f32⟩
  | 10 => ⟨S1x100000, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S1x100000, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S1x128, .f32⟩
  | 33 => ⟨S1x128, .f32⟩
  | 34 => ⟨S1x128, .f32⟩
  | 35 => ⟨S1x1, .f32⟩
  | 36 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S256x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x1, .f32⟩
  | .local _ .vmem, ⟨31, _⟩ => ⟨S1x1, .f32⟩
  | .local _ .vmem, ⟨32, _⟩ => ⟨S10000x1, .f32⟩
  | .local _ .vmem, ⟨33, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_v60 : Ref sig .tc := ⟨.hbm, 99, rfl⟩
abbrev main_c_13 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_15 : Ref sig .tc := ⟨.hbm, 109, rfl⟩
abbrev main_v68 : Ref sig .tc := ⟨.hbm, 110, rfl⟩
abbrev main_v69 : Ref sig .tc := ⟨.hbm, 111, rfl⟩
abbrev main_c_16 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_17 : Ref sig .tc := ⟨.hbm, 121, rfl⟩
abbrev main_v78 : Ref sig .tc := ⟨.hbm, 122, rfl⟩
abbrev main_v79 : Ref sig .tc := ⟨.hbm, 123, rfl⟩
abbrev main_c_18 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_19 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_20 : Ref sig .tc := ⟨.hbm, 140, rfl⟩
abbrev main_v94 : Ref sig .tc := ⟨.hbm, 141, rfl⟩
abbrev main_v95 : Ref sig .tc := ⟨.hbm, 142, rfl⟩
abbrev main_c_21 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_22 : Ref sig .tc := ⟨.hbm, 151, rfl⟩
abbrev main_v103 : Ref sig .tc := ⟨.hbm, 152, rfl⟩
abbrev main_v104 : Ref sig .tc := ⟨.hbm, 153, rfl⟩
abbrev main_c_23 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg7_0 : Ref sig .tc := ⟨.vmem, 29, rfl⟩
abbrev cc4_stg8_0 : Ref sig .tc := ⟨.vmem, 30, rfl⟩
abbrev cc4_stg9_0 : Ref sig .tc := ⟨.vmem, 31, rfl⟩
abbrev cc4_stg10_0 : Ref sig .tc := ⟨.vmem, 32, rfl⟩
abbrev cc4_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29
abbrev cc4_sem8_0 : DmaSem sig := 30
abbrev cc4_sem9_0 : DmaSem sig := 31
abbrev cc4_sem10_0 : DmaSem sig := 32
abbrev cc4_sem10_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S10000x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x100000_S1x100000_0_0 : S2x100000.Slices ![0, 0] S1x100000
  shapeCasts_S1x100000_S100000 : S1x100000.ShapeCasts S100000
  bcast_S100000_S100000x1_0 : S100000.BroadcastsInDim S100000x1 (![0] : Fin 1 → Fin S100000x1.rank)
  slices_S2x100000_S1x100000_1_0 : S2x100000.Slices ![1, 0] S1x100000
  shapeCasts_S1_S1x1 : S1.ShapeCasts S1x1
  concatenates_S10000x128_S10000x128_S10000x256_d1 : Shape.Concatenates [S10000x128, S10000x128] S10000x256 1
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S100000x1_S100000x128_1_0_n_n_0_1_1128_wf : GatherDims.WF S100000x128 S100000x1 S100000x128 [1] [0] [] [0] [] 1 ![1, 128]
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x1.size a ≤ S128x1.size a
  hwx4_8 : ∀ i : grid4.Coords, EltTy.bits .f32 = 32 ∨ (Rect.block (s := S128x1) S128x1.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x1.size a ≤ S1x1.size a
  hwx4_9 : ∀ i : grid4.Coords, EltTy.bits .f32 = 32 ∨ (Rect.block (s := S1x1) S1x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S10000x1.size a ≤ S100000x1.size a
  hwx4_10 : ∀ i : grid4.Coords, EltTy.bits .f32 = 32 ∨ (Rect.block (s := S100000x1) S10000x1.size (cc4_transform_10 i) (hinb4_10 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v100) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v110) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg16) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v112) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg18) S128x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v113) S1x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v114) S10000x1.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S100000x128 : Shape := ⟨2, ![100000, 128]⟩
abbrev S600000x1 : Shape := ⟨2, ![600000, 1]⟩
abbrev S2x600000 : Shape := ⟨2, ![2, 600000]⟩
abbrev S2x100000 : Shape := ⟨2, ![2, 100000]⟩
abbrev S128x128 : Shape := ⟨2, ![128, 128]⟩
abbrev S128 : Shape := ⟨1, ![128]⟩
abbrev S257x128 : Shape := ⟨2, ![257, 128]⟩
abbrev S384x128 : Shape := ⟨2, ![384, 128]⟩
abbrev S256x128 : Shape := ⟨2, ![256, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S600000x128 : Shape := ⟨2, ![600000, 128]⟩
abbrev S600000x257 : Shape := ⟨2, ![600000, 257]⟩
abbrev S600000x384 : Shape := ⟨2, ![600000, 384]⟩
abbrev S1x100000 : Shape := ⟨2, ![1, 100000]⟩
abbrev S100000x1 : Shape := ⟨2, ![100000, 1]⟩
abbrev S100000x256 : Shape := ⟨2, ![100000, 256]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S100000x128, .f32⟩
  | 1 => ⟨S600000x1, .f32⟩
  | 2 => ⟨S2x600000, .i32⟩
  | 3 => ⟨S2x100000, .i32⟩
  | 4 => ⟨S128x128, .f32⟩
  | 5 => ⟨S128, .f32⟩
  | 6 => ⟨S128x128, .f32⟩
  | 7 => ⟨S128, .f32⟩
  | 8 => ⟨S257x128, .f32⟩
  | 9 => ⟨S128, .f32⟩
  | 10 => ⟨S384x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x1, .f32⟩
  | 19 => ⟨S1, .f32⟩
  | 20 => ⟨S1x600000, .i32⟩
  | 21 => ⟨S600000, .i32⟩
  | 22 => ⟨S1x600000, .i32⟩
  | 23 => ⟨S600000, .i32⟩
  | 24 => ⟨S100000, .i32⟩
  | 25 => ⟨S700000, .i32⟩
  | 26 => ⟨S700000, .i32⟩
  | 27 => ⟨S_, .f32⟩
  | 28 => ⟨S700000, .f32⟩
  | 29 => ⟨S_, .f32⟩
  | 30 => ⟨S100000, .f32⟩
  | 31 => ⟨S700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000, .f32⟩
  | 59 => ⟨S700000, .f32⟩
  | 60 => ⟨S100000x128, .f32⟩
  | 61 => ⟨S700000x1, .f32⟩
  | 62 => ⟨S_, .i32⟩
  | 63 => ⟨S700000, .i32⟩
  | 64 => ⟨S700000, .i1⟩
  | 65 => ⟨S_, .i32⟩
  | 66 => ⟨S700000, .i32⟩
  | 67 => ⟨S700000, .i32⟩
  | 68 => ⟨S700000, .i32⟩
  | 69 => ⟨S700000x1, .i32⟩
  | 70 => ⟨S700000x128, .f32⟩
  | 71 => ⟨S700000x128, .f32⟩
  | 72 => ⟨S700000x128, .f32⟩
  | 73 => ⟨S_, .f32⟩
  | 74 => ⟨S100000x128, .f32⟩
  | 75 => ⟨S700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S1x600000, .i32⟩
  | 84 => ⟨S600000, .i32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S1x600000, .i32⟩
  | 95 => ⟨S600000, .i32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S600000x257, .f32⟩
  | 106 => ⟨S600000x128, .f32⟩
  | 107 => ⟨S1x128, .f32⟩
  | 108 => ⟨S600000x128, .f32⟩
  | 109 => ⟨S600000x128, .f32⟩
  | 110 => ⟨S_, .f32⟩
  | 111 => ⟨S600000x128, .f32⟩
  | 112 => ⟨S600000x128, .f32⟩
  | 113 => ⟨S1x600000, .i32⟩
  | 114 => ⟨S600000, .i32⟩
  | 115 => ⟨S1x600000, .i32⟩
  | 116 => ⟨S600000, .i32⟩
  | 117 => ⟨S100000, .i32⟩
  | 118 => ⟨S700000, .i32⟩
  | 119 => ⟨S700000, .i32⟩
  | 120 => ⟨S_, .f32⟩
  | 121 => ⟨S700000, .f32⟩
  | 122 => ⟨S_, .f32⟩
  | 123 => ⟨S100000, .f32⟩
  | 124 => ⟨S700000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .i1⟩
  | 1 => ⟨S100000, .f32⟩
  | 2 => ⟨S_, .f32⟩
  | 3 => ⟨S_, .f32⟩
  | 4 => ⟨S100000, .f32⟩
  | 5 => ⟨S100000, .f32⟩
  | 6 => ⟨S_, .i32⟩
  | 7 => ⟨S700000, .i32⟩
  | 8 => ⟨S700000, .i1⟩
  | 9 => ⟨S_, .i32⟩
  | 10 => ⟨S700000, .i32⟩
  | 11 => ⟨S700000, .i32⟩
  | 12 => ⟨S700000, .i32⟩
  | 13 => ⟨S700000x1, .i32⟩
  | 14 => ⟨S700000, .f32⟩
  | 15 => ⟨S_, .i32⟩
  | 16 => ⟨S700000, .i32⟩
  | 17 => ⟨S700000, .i1⟩
  | 18 => ⟨S_, .i32⟩
  | 19 => ⟨S700000, .i32⟩
  | 20 => ⟨S700000, .i32⟩
  | 21 => ⟨S700000, .i32⟩
  | 22 => ⟨S700000x1, .i32⟩
  | 23 => ⟨S700000, .f32⟩
  | 24 => ⟨S700000, .f32⟩
  | 25 => ⟨S100000x128, .f32⟩
  | 26 => ⟨S700000x1, .f32⟩
  | 27 => ⟨S_, .i32⟩
  | 28 => ⟨S700000, .i32⟩
  | 29 => ⟨S700000, .i1⟩
  | 30 => ⟨S_, .i32⟩
  | 31 => ⟨S700000, .i32⟩
  | 32 => ⟨S700000, .i32⟩
  | 33 => ⟨S700000, .i32⟩
  | 34 => ⟨S700000x1, .i32⟩
  | 35 => ⟨S700000x128, .f32⟩
  | 36 => ⟨S700000x128, .f32⟩
  | 37 => ⟨S700000x128, .f32⟩
  | 38 => ⟨S_, .f32⟩
  | 39 => ⟨S100000x128, .f32⟩
  | 40 => ⟨S700000x1, .i32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S1x600000, .i32⟩
  | 49 => ⟨S600000, .i32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S1x600000, .i32⟩
  | 60 => ⟨S600000, .i32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x384, .f32⟩
  | 71 => ⟨S600000x128, .f32⟩
  | 72 => ⟨S1x128, .f32⟩
  | 73 => ⟨S600000x128, .f32⟩
  | 74 => ⟨S600000x128, .f32⟩
  | 75 => ⟨S_, .f32⟩
  | 76 => ⟨S600000x128, .f32⟩
  | 77 => ⟨S600000x128, .f32⟩
  | 78 => ⟨S1x100000, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x128, .f32⟩
  | 89 => ⟨S1x100000, .i32⟩
  | 90 => ⟨S100000, .i32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x128, .f32⟩
  | 100 => ⟨S100000x256, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x1, .f32⟩
  | 123 => ⟨S1x1, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_2 (i : Nat) : BufTy := match i % 128 with
  | 0 => ⟨S100000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_cst : Ref sig .tc := ⟨.hbm, 80, rfl⟩
abbrev main_call1_v0 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_9 : Ref sig .tc := ⟨.hbm, 85, rfl⟩
abbrev main_v50 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_11 : Ref sig .tc := ⟨.hbm, 96, rfl⟩
abbrev main_v59 : Ref sig .tc := ⟨.hbm, 97, rfl⟩
abbrev main_v60 : Ref sig .tc := ⟨.hbm, 98, rfl⟩
abbrev main_c_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call2_cst : Ref sig .tc := ⟨.hbm, 110, rfl⟩
abbrev main_call2_v0 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_cst_14 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_15 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_16 : Ref sig .tc := ⟨.hbm, 130, rfl⟩
abbrev main_call3_v0 : Ref sig .tc := ⟨.hbm, 131, rfl⟩
abbrev main_call3_v1 : Ref sig .tc := ⟨.hbm, 132, rfl⟩
abbrev main_v86 : Ref sig .tc := ⟨.hbm, 133, rfl⟩
abbrev main_c_17 : Ref sig .tc := ⟨.hbm, 134, rfl⟩
abbrev main_v87 : Ref sig .tc := ⟨.hbm, 135, rfl⟩
abbrev main_v88 : Ref sig .tc := ⟨.hbm, 136, rfl⟩
abbrev main_c_18 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c_19 : Ref sig .tc := ⟨.hbm, 143, rfl⟩
abbrev main_v94 : Ref sig .tc := ⟨.hbm, 144, rfl⟩
abbrev main_v95 : Ref sig .tc := ⟨.hbm, 145, rfl⟩
abbrev main_c_20 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_21 : Ref sig .tc := ⟨.hbm, 155, rfl⟩
abbrev main_v104 : Ref sig .tc := ⟨.hbm, 156, rfl⟩
abbrev main_v105 : Ref sig .tc := ⟨.hbm, 157, rfl⟩
abbrev main_c_22 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_23 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_call4_cst : Ref sig .tc := ⟨.hbm, 173, rfl⟩
abbrev main_call4_v0 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_c_24 : Ref sig .tc := ⟨.hbm, 178, rfl⟩
abbrev main_v122 : Ref sig .tc := ⟨.hbm, 179, rfl⟩
abbrev main_v123 : Ref sig .tc := ⟨.hbm, 180, rfl⟩
abbrev main_c_25 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_c_26 : Ref sig .tc := ⟨.hbm, 189, rfl⟩
abbrev main_v131 : Ref sig .tc := ⟨.hbm, 190, rfl⟩
abbrev main_v132 : Ref sig .tc := ⟨.hbm, 191, rfl⟩
abbrev main_c_27 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_call5_cst : Ref sig .tc := ⟨.hbm, 203, rfl⟩
abbrev main_call5_v0 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_c_28 : Ref sig .tc := ⟨.hbm, 208, rfl⟩
abbrev main_v146 : Ref sig .tc := ⟨.hbm, 209, rfl⟩
abbrev main_v147 : Ref sig .tc := ⟨.hbm, 210, rfl⟩
abbrev main_c_29 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_c_30 : Ref sig .tc := ⟨.hbm, 219, rfl⟩
abbrev main_v155 : Ref sig .tc := ⟨.hbm, 220, rfl⟩
abbrev main_v156 : Ref sig .tc := ⟨.hbm, 221, rfl⟩
abbrev main_c_31 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_call6_cst : Ref sig .tc := ⟨.hbm, 233, rfl⟩
abbrev main_call6_v0 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_call7_cst : Ref sig .tc := ⟨.hbm, 240, rfl⟩
abbrev main_call7_v0 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_call8_cst : Ref sig .tc := ⟨.hbm, 247, rfl⟩
abbrev main_call8_v0 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_call9_cst : Ref sig .tc := ⟨.hbm, 254, rfl⟩
abbrev main_call9_v0 : Ref sig .tc := ⟨.hbm, 255, rfl⟩
abbrev main_v182 : Ref sig .tc := ⟨.hbm, 256, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x1_S600000x257_d1 : Shape.Concatenates [S600000x128, S600000x128, S600000x1] S600000x257 1
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S600000x128_S600000x128_S600000x128_S600000x384_d1 : Shape.Concatenates [S600000x128, S600000x128, S600000x128] S600000x384 1
  slices_S2x100000_S1x100000_0_0 : S2x100000.Slices ![0, 0] S1x100000
  shapeCasts_S1x100000_S100000 : S1x100000.ShapeCasts S100000
  bcast_S100000_S100000x1_0 : S100000.BroadcastsInDim S100000x1 (![0] : Fin 1 → Fin S100000x1.rank)
  slices_S2x100000_S1x100000_1_0 : S2x100000.Slices ![1, 0] S1x100000
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  gather_S100000x128_S600000x1_S600000x128_1_0_n_n_0_1_1128_wf : GatherDims.WF S100000x128 S600000x1 S600000x128 [1] [0] [] [0] [] 1 ![1, 128]
  dot_S600000x257_S257x128_S600000x128_1_0_0_1_n_n_wf : DotDims.WF S600000x257 S257x128 S600000x128 [1] [0] [0] [1] [] []
  dot_S600000x384_S384x128_S600000x128_1_0_0_1_n_n_wf : DotDims.WF S600000x384 S384x128 S600000x128 [1] [0] [0] [1] [] []
  gather_S100000x128_S100000x1_S100000x128_1_0_n_n_0_1_1128_wf : GatherDims.WF S100000x128 S100000x1 S100000x128 [1] [0] [] [0] [] 1 ![1, 128]
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RunResult.lean ====
/-
  The idealized kernel's run, with its result named.

  @main is fourteen segments: stretches of host operations and five kernel regions. Every weakly fair execution
  walks them in order, and the buffer contents at each boundary are a fold from the launch memory: a stretch
  applies its operations; a region leaves each of its output arrays at what its grid points wrote back and every
  other buffer as it found it. At the return every unscoped buffer holds the last boundary's contents. So the
  result array, the last region's output, ends at that boundary's contents, and the twenty argument arrays end as
  launched, since nothing writes them.
-/
import proofs.«152535_j412316860634_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes
-- unfolding plain definitions in a metavariable's type
set_option backward.isDefEq.respectTransparency.types false in
/-- Every weakly fair execution of @main terminates, nothing faulting, and at the return every unscoped buffer of every
    core holds the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- In particular the result array ends at the last boundary's contents, and every argument array as launched:
    nothing along the way writes an argument. -/
theorem run_result : θ_run defs (onTc (τ := τ) (main (F := F))) ⟨m, fun _ => 0, ρ⟩ (fun r => ∀ c : Dev nD,
      r.2.mem ((c.tc : Thread nD τ).loc main_v114) = W14 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v114 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c),
      (h c _ (mem_uc main_arg13 (by decide))).trans (W14_main_arg13 m ρ c),
      (h c _ (mem_uc main_arg14 (by decide))).trans (W14_main_arg14 m ρ c),
      (h c _ (mem_uc main_arg15 (by decide))).trans (W14_main_arg15 m ρ c),
      (h c _ (mem_uc main_arg16 (by decide))).trans (W14_main_arg16 m ρ c),
      (h c _ (mem_uc main_arg17 (by decide))).trans (W14_main_arg17 m ρ c),
      (h c _ (mem_uc main_arg18 (by decide))).trans (W14_main_arg18 m ρ c),
      (h c _ (mem_uc main_arg19 (by decide))).trans (W14_main_arg19 m ρ c)⟩)
    (run_boundary m ρ)

end Cert.KernelIdeal.Result

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.RowBlock.lean ====
/-
  Reading a long array ten thousand rows at a time.

  The kernels tile the row axis of their [100000, n] arrays into ten blocks of 10000 rows; block t holds rows
  10000·t … 10000·t + 9999. Every operation the kernels' bodies apply to a block is the restriction to those rows of
  the whole-array operation the reference applies on the host: a matrix product with a fixed right factor (each
  output row is a sum over the same row of the left factor), an addition or a maximum (entry by entry), the bias
  row sent to every row, the zero constant, and joining two arrays side by side. This module states each of those
  facts once, over the extended reals; none needs the entries finite.
-/
import proofs.«152535_j412316860634_1_alg».proof.Proof.Gen.KernelIdeal
import proofs.«152535_j412316860634_1_alg».proof.Proof.Gen.ReferenceIdeal
import proofs.«152535_j412316860634_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.RowBlock

open Idealize.ShloMosaic Idealize.ShloMosaic.ValueIdx

/-- Row p of block t is row 10000·t + p of the long array. -/
def rowAt {n : Nat} (t : Nat) (ht : t < 10) (y : (⟨2, ![10000, n]⟩ : Shape).Idx) : (⟨2, ![100000, n]⟩ : Shape).Idx :=
  ix2 ⟨10000 * t + (y 0).val, by have := idx2_lt0 y; omega⟩ (y 1)

/-- Block t of a long array: its rows 10000·t … 10000·t + 9999. -/
def rows {α : Type} {n : Nat} (t : Nat) (ht : t < 10) (X : (⟨2, ![100000, n]⟩ : Shape).Idx → α) :
    (⟨2, ![10000, n]⟩ : Shape).Idx → α := fun y => X (rowAt t ht y)

variable (t : Nat) (ht : t < 10)

/-! ## Matrix products: a block of rows of A · W is (that block of A) · W -/

theorem rows_dot128 (A : FVec Ideal Cert.ReferenceIdeal.S100000x128 .f32) (W : FVec Ideal Cert.ReferenceIdeal.S128x128 .f32) :
    rows t ht (Host.dotGeneral Cert.ReferenceIdeal.dot_S100000x128_S128x128_S100000x128_1_0_0_1_n_n none A W)
      = matmul Cert.KernelIdeal.dot_S10000x128_S128x128_S10000x128_1_0_0_1_n_n none (rows t ht A) W
          (constant Cert.KernelIdeal.S10000x128 .f32 0x00000000#32) := by
  funext y
  obtain ⟨p, c, rfl⟩ : ∃ (p : Fin 10000) (c : Fin 128), y = ix2 p c := ⟨y 0, y 1, eq_ix2 y⟩
  exact Cert.LibPlainDot.dotGeneral_rows (off := 10000 * t) (Cert.ReferenceIdeal.dot_S100000x128_S128x128_S100000x128_1_0_0_1_n_n).wf
    (by omega) (Cert.KernelIdeal.dot_S10000x128_S128x128_S10000x128_1_0_0_1_n_n).wf none none _ A W p c

theorem rows_dot256 (A : FVec Ideal Cert.ReferenceIdeal.S100000x256 .f32) (W : FVec Ideal Cert.ReferenceIdeal.S256x128 .f32) :
    rows t ht (Host.dotGeneral Cert.ReferenceIdeal.dot_S100000x256_S256x128_S100000x128_1_0_0_1_n_n none A W)
      = matmul Cert.KernelIdeal.dot_S10000x256_S256x128_S10000x128_1_0_0_1_n_n none (rows t ht A) W
          (constant Cert.KernelIdeal.S10000x128 .f32 0x00000000#32) := by
  funext y
  obtain ⟨p, c, rfl⟩ : ∃ (p : Fin 10000) (c : Fin 128), y = ix2 p c := ⟨y 0, y 1, eq_ix2 y⟩
  exact Cert.LibPlainDot.dotGeneral_rows (off := 10000 * t) (Cert.ReferenceIdeal.dot_S100000x256_S256x128_S100000x128_1_0_0_1_n_n).wf
    (by omega) (Cert.KernelIdeal.dot_S10000x256_S256x128_S10000x128_1_0_0_1_n_n).wf none none _ A W p c

theorem rows_dot1 (A : FVec Ideal Cert.ReferenceIdeal.S100000x128 .f32) (W : FVec Ideal Cert.ReferenceIdeal.S128x1 .f32) :
    rows t ht (Host.dotGeneral Cert.ReferenceIdeal.dot_S100000x128_S128x1_S100000x1_1_0_0_1_n_n none A W)
      = matmul Cert.KernelIdeal.dot_S10000x128_S128x1_S10000x1_1_0_0_1_n_n none (rows t ht A) W
          (constant Cert.KernelIdeal.S10000x1 .f32 0x00000000#32) := by
  funext y
  obtain ⟨p, c, rfl⟩ : ∃ (p : Fin 10000) (c : Fin 1), y = ix2 p c := ⟨y 0, y 1, eq_ix2 y⟩
  exact Cert.LibPlainDot.dotGeneral_rows (off := 10000 * t) (Cert.ReferenceIdeal.dot_S100000x128_S128x1_S100000x1_1_0_0_1_n_n).wf
    (by omega) (Cert.KernelIdeal.dot_S10000x128_S128x1_S10000x1_1_0_0_1_n_n).wf none none _ A W p c

/-! ## Entry-by-entry operations -/

theorem rows_addf {n : Nat} (X Y : FVec Ideal ⟨2, ![100000, n]⟩ .f32) :
    rows t ht (addf X Y) = addf (rows t ht X) (rows t ht Y) := rfl

theorem rows_maximumf {n : Nat} (X Y : FVec Ideal ⟨2, ![100000, n]⟩ .f32) :
    rows t ht (maximumf X Y) = maximumf (rows t ht X) (rows t ht Y) := rfl

/-! ## The bias row on every row, and the zero constant -/

theorem rows_bias128 (b : FVec Ideal Cert.ReferenceIdeal.S1x128 .f32) :
    rows t ht (broadcastInDim Cert.ReferenceIdeal.S100000x128 ![0, 1] Cert.ReferenceIdeal.Facts₀.bcast_S1x128_S100000x128_0_1 b)
      = broadcastTo Cert.KernelIdeal.S10000x128 (shapeCast Cert.KernelIdeal.S1x128 b Cert.KernelIdeal.Facts₀.shapeCasts_S1x128_S1x128)
          Cert.KernelIdeal.Facts₀.broadcasts_S1x128_S10000x128 := by
  funext y
  obtain ⟨p, c, rfl⟩ : ∃ (p : Fin 10000) (c : Fin 128), y = ix2 p c := ⟨y 0, y 1, eq_ix2 y⟩
  rw [shapeCast_self]
  refine (broadcastInDim_apply ![0, 1] _ b (rowAt t ht (ix2 p c)) (ix2 (0 : Fin 1) c) fun a => ?_).trans
    (broadcastTo_apply b _ (ix2 p c) (ix2 (0 : Fin 1) c) fun a => ?_).symm
  · match a with
    | ⟨0, _⟩ => rfl
    | ⟨1, _⟩ => rfl
  · match a with
    | ⟨0, _⟩ => rfl
    | ⟨1, _⟩ => rfl

theorem rows_bias1 (b : FVec Ideal Cert.ReferenceIdeal.S1x1 .f32) :
    rows t ht (broadcastInDim Cert.ReferenceIdeal.S100000x1 ![0, 1] Cert.ReferenceIdeal.Facts₀.bcast_S1x1_S100000x1_0_1 b)
      = broadcastTo Cert.KernelIdeal.S10000x1 (shapeCast Cert.KernelIdeal.S1x1 b Cert.KernelIdeal.Facts₀.shapeCasts_S1x1_S1x1)
          Cert.KernelIdeal.Facts₀.broadcasts_S1x1_S10000x1 := by
  funext y
  obtain ⟨p, c, rfl⟩ : ∃ (p : Fin 10000) (c : Fin 1), y = ix2 p c := ⟨y 0, y 1, eq_ix2 y⟩
  rw [shapeCast_self]
  refine (broadcastInDim_apply ![0, 1] _ b (rowAt t ht (ix2 p c)) (ix2 (0 : Fin 1) c) fun a => ?_).trans
    (broadcastTo_apply b _ (ix2 p c) (ix2 (0 : Fin 1) c) fun a => ?_).symm
  · match a with
    | ⟨0, _⟩ => rfl
    | ⟨1, _⟩ => exact (Fin.val_eq_zero c).trans rfl
  · match a with
    | ⟨0, _⟩ => rfl
    | ⟨1, _⟩ => exact (Fin.val_eq_zero c).trans rfl

theorem rows_zero128 :
    rows t ht (broadcastInDim Cert.ReferenceIdeal.S100000x128 ![] Cert.ReferenceIdeal.Facts₀.bcast_S_S100000x128
        (constant (F := Ideal) Cert.ReferenceIdeal.S_ .f32 0x00000000#32))
      = broadcast Cert.KernelIdeal.S10000x128 (Scalar.ofBits (F := Ideal) .f32 0x00000000#32) := by
  funext y
  exact (broadcastInDim_apply ![] _ _ (rowAt t ht y) ix0 fun a => a.elim0).trans rfl

theorem rows_zero1 :
    rows t ht (broadcastInDim Cert.ReferenceIdeal.S100000x1 ![] Cert.ReferenceIdeal.Facts₀.bcast_S_S100000x1
        (constant (F := Ideal) Cert.ReferenceIdeal.S_ .f32 0x00000000#32))
      = broadcast Cert.KernelIdeal.S10000x1 (Scalar.ofBits (F := Ideal) .f32 0x00000000#32) := by
  funext y
  exact (broadcastInDim_apply ![] _ _ (rowAt t ht y) ix0 fun a => a.elim0).trans rfl

/-! ## Two arrays side by side -/

theorem rows_concat (A B : FVec Ideal Cert.ReferenceIdeal.S100000x128 .f32) :
    rows t ht (concatenate Cert.ReferenceIdeal.S100000x256 1 [⟨Cert.ReferenceIdeal.S100000x128, A⟩, ⟨Cert.ReferenceIdeal.S100000x128, B⟩]
        Cert.ReferenceIdeal.Facts₀.concatenates_S100000x128_S100000x128_S100000x256_d1)
      = concatenate Cert.KernelIdeal.S10000x256 1 [⟨Cert.KernelIdeal.S10000x128, rows t ht A⟩, ⟨Cert.KernelIdeal.S10000x128, rows t ht B⟩]
          Cert.KernelIdeal.Facts₀.concatenates_S10000x128_S10000x128_S10000x256_d1 := by
  funext y
  obtain ⟨p, c, rfl⟩ : ∃ (p : Fin 10000) (c : Fin 256), y = ix2 p c := ⟨y 0, y 1, eq_ix2 y⟩
  by_cases hc : c.val < 128
  · refine (concatenate_pair_apply_left 1 A B _ (rowAt t ht (ix2 p c)) rfl
      (ix2 ⟨10000 * t + p.val, by have := p.isLt; omega⟩ ⟨c.val, hc⟩) fun b => ?_).trans
      (concatenate_pair_apply_left 1 (rows t ht A) (rows t ht B) _ (ix2 p c) rfl (ix2 p ⟨c.val, hc⟩) fun b => ?_).symm
    · match b with
      | ⟨0, _⟩ => rfl
      | ⟨1, _⟩ => rfl
    · match b with
      | ⟨0, _⟩ => rfl
      | ⟨1, _⟩ => rfl
  · have hc' : c.val - 128 < 128 := by have := c.isLt; omega
    refine (concatenate_pair_apply_right 1 A B _ (rowAt t ht (ix2 p c)) rfl rfl
      (ix2 ⟨10000 * t + p.val, by have := p.isLt; omega⟩ ⟨c.val - 128, hc'⟩) (fun b hb => ?_) ?_).trans
      (concatenate_pair_apply_right 1 (rows t ht A) (rows t ht B) _ (ix2 p c) rfl rfl (ix2 p ⟨c.val - 128, hc'⟩) (fun b hb => ?_) ?_).symm
    · match b with
      | ⟨0, _⟩ => rfl
      | ⟨1, _⟩ => exact absurd rfl hb
    · show c.val - 128 + 128 = c.val
      omega
    · match b with
      | ⟨0, _⟩ => rfl
      | ⟨1, _⟩ => exact absurd rfl hb
    · show c.val - 128 + 128 = c.val
      omega

end Cert.RowBlock

end
-- ==== Proof.Region0.lean ====
/-
  Kernel region 0: a matrix product, ten thousand rows at a time.

  The region's grid has ten points. At point t the body loads rows 10000·t … 10000·t + 9999 of the left factor and
  the whole right factor, multiplies them into a zero accumulator, and stores the product as rows
  10000·t … 10000·t + 9999 of the output. A block of rows of a product is the product of that block of rows with
  the right factor, and the ten blocks tile the output, so after the region the output array is the host's
  `dot_general` of the two arrays as the region found them.
-/
import proofs.«152535_j412316860634_1_alg».proof.Proof.Gen.KernelIdeal.Frame
import proofs.«152535_j412316860634_1_alg».proof.Proof.Gen.ReferenceIdeal
import proofs.«152535_j412316860634_1_alg».proof.Proof.RowBlock

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The grid point's number is below ten. -/
theorem lt10 (t : Fin cfg0.N) : t.val < 10 := by have h : t.val < grid0.N := t.isLt; have hN : grid0.N = 10 := N_0; omega

/-- The index maps, decided over the grid: the left factor's and the output's blocks move down with the point, the
    right factor's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where entry y of the left factor's block at point t sits in its array. -/
theorem emb_lhs (t : Fin cfg0.N) (y : S10000x128.Idx) : ((cfg0.win 0).blk t).view.emb y = rowAt t.val (lt10 t) y := by
  obtain ⟨e0, e1, -, -, -, -⟩ := idx_facts t
  funext a; apply Fin.ext
  match a with
  | ⟨0, _⟩ => show win0_0.index t (0 : Fin 2) * 10000 + 1 * (y 0).val = 10000 * t.val + (y 0).val; omega
  | ⟨1, _⟩ => show win0_0.index t (1 : Fin 2) * 128 + 1 * (y 1).val = (y 1).val; omega

/-- The right factor's block is the whole array. -/
theorem emb_rhs (t : Fin cfg0.N) (y : S128x128.Idx) : ((cfg0.win 1).blk t).view.emb y = y := by
  obtain ⟨-, -, e2, e3, -, -⟩ := idx_facts t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Where entry y of the output's block at point t sits in its array. -/
theorem emb_out (t : Fin cfg0.N) (y : S10000x128.Idx) : ((cfg0.win 2).blk t).view.emb y = rowAt t.val (lt10 t) y := by
  obtain ⟨-, -, -, -, e4, e5⟩ := idx_facts t
  funext a; apply Fin.ext
  match a with
  | ⟨0, _⟩ => show win0_2.index t (0 : Fin 2) * 10000 + 1 * (y 0).val = 10000 * t.val + (y 0).val; omega
  | ⟨1, _⟩ => show win0_2.index t (1 : Fin 2) * 128 + 1 * (y 1).val = (y 1).val; omega

/-- The left factor's block at point t: its rows 10000·t … -/
theorem blk_lhs (c : Dev nD) (t : Fin cfg0.N) : iblk0 V c 0 t = rows t.val (lt10 t) (V c main_arg0) :=
  funext fun y => congrArg (V c main_arg0) (emb_lhs t y)

/-- The right factor's block at every point: the array. -/
theorem blk_rhs (c : Dev nD) (t : Fin cfg0.N) : iblk0 V c 1 t = V c main_arg4 :=
  funext fun y => congrArg (V c main_arg4) (emb_rhs t y)

/-- What the region leaves in the output array: the product of the two arrays it found. -/
abbrev product (c : Dev nD) : Buf (Elt Ideal) ((c : Thread nD τ).loc main_v30) :=
  Host.dotGeneral (F := Ideal) (φ₁ := .f32) (φ₂ := .f32) Cert.ReferenceIdeal.dot_S100000x128_S128x128_S100000x128_1_0_0_1_n_n none
    (V c main_arg0 : FVec Ideal Cert.ReferenceIdeal.S100000x128 .f32) (V c main_arg4 : FVec Ideal Cert.ReferenceIdeal.S128x128 .f32)

/-- WHAT POINT t WRITES BACK is rows 10000·t … of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [blk_lhs, blk_rhs]
  unfold k0_pay1
  refine (rows_dot128 t.val (lt10 t) (V c main_arg0) (V c main_arg4)).symm.trans ?_
  exact funext fun y => congrArg (product V c) (emb_out t y).symm

/-- An index of the output array is in point t's block iff its row is among rows 10000·t … 10000·t + 9999. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten blocks tile the output: row r is in the block of point r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; omega⟩
  obtain ⟨-, -, -, -, e4, e5⟩ := idx_facts t
  have e4' : win0_2.index t (0 : Fin 2) = (i 0).val / 10000 := e4
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the region: the product of the two arrays the region found. -/
theorem final (c : Dev nD) : (dat0 V c).arrAt 2 cfg0.N = product V c :=
  (dat0 V c).arrAt_eq_of_cover 2 (product V c) (fun t _ => flushed_eq V c t) (cover)

end Cert.KernelIdeal.Region0

end
-- ==== Proof.Region1.lean ====
/-
  Kernel region 1: add the bias row and take the positive part, ten thousand rows at a time.

  The region's grid has ten points. At point t the body loads rows 10000·t … 10000·t + 9999 of the aggregated
  array and the one-row bias, adds the bias to every row, takes the maximum with zero entry by entry, and stores
  the result as the same rows of the output. Adding a row to every row and taking a maximum are entry-by-entry
  operations, so they commute with restricting to a block of rows; the ten blocks tile the output. After the
  region the output array is max(X + bias, 0) of the arrays as the region found them.
-/
import proofs.«152535_j412316860634_1_alg».proof.Proof.Gen.KernelIdeal.Frame
import proofs.«152535_j412316860634_1_alg».proof.Proof.Gen.ReferenceIdeal
import proofs.«152535_j412316860634_1_alg».proof.Proof.RowBlock

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The grid point's number is below ten. -/
theorem lt10 (t : Fin cfg1.N) : t.val < 10 := by have h : t.val < grid1.N := t.isLt; have hN : grid1.N = 10 := N_1; omega

/-- The index maps, decided over the grid: the input's and the output's blocks move down with the point, the bias
    row's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Where entry y of the input's block at point t sits in its array. -/
theorem emb_in (t : Fin cfg1.N) (y : S10000x128.Idx) : ((cfg1.win 0).blk t).view.emb y = rowAt t.val (lt10 t) y := by
  obtain ⟨e0, e1, -, -, -, -⟩ := idx_facts t
  funext a; apply Fin.ext
  match a with
  | ⟨0, _⟩ => show win1_0.index t (0 : Fin 2) * 10000 + 1 * (y 0).val = 10000 * t.val + (y 0).val; omega
  | ⟨1, _⟩ => show win1_0.index t (1 : Fin 2) * 128 + 1 * (y 1).val = (y 1).val; omega

/-- The bias row's block is the whole row. -/
theorem emb_row (t : Fin cfg1.N) (y : S1x128.Idx) : ((cfg1.win 1).blk t).view.emb y = y := by
  obtain ⟨-, -, e2, e3, -, -⟩ := idx_facts t
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Where entry y of the output's block at point t sits in its array. -/
theorem emb_out (t : Fin cfg1.N) (y : S10000x128.Idx) : ((cfg1.win 2).blk t).view.emb y = rowAt t.val (lt10 t) y := by
  obtain ⟨-, -, -, -, e4, e5⟩ := idx_facts t
  funext a; apply Fin.ext
  match a with
  | ⟨0, _⟩ => show win1_2.index t (0 : Fin 2) * 10000 + 1 * (y 0).val = 10000 * t.val + (y 0).val; omega
  | ⟨1, _⟩ => show win1_2.index t (1 : Fin 2) * 128 + 1 * (y 1).val = (y 1).val; omega

/-- The input's block at point t: its rows 10000·t … -/
theorem blk_in (c : Dev nD) (t : Fin cfg1.N) : iblk1 V c 0 t = rows t.val (lt10 t) (V c main_v43) :=
  funext fun y => congrArg (V c main_v43) (emb_in t y)

/-- The bias row's block at every point: the row. -/
theorem blk_row (c : Dev nD) (t : Fin cfg1.N) : iblk1 V c 1 t = V c main_v44 :=
  funext fun y => congrArg (V c main_v44) (emb_row t y)

/-- What the region leaves in the output array: max(X + bias, 0), entry by entry, in the host's spelling. -/
abbrev biased (c : Dev nD) : Buf (Elt Ideal) ((c : Thread nD τ).loc main_v45) :=
  maximumf
    (addf (V c main_v43 : FVec Ideal Cert.ReferenceIdeal.S100000x128 .f32)
      (broadcastInDim Cert.ReferenceIdeal.S100000x128 ![0, 1] Cert.ReferenceIdeal.Facts₀.bcast_S1x128_S100000x128_0_1
        (V c main_v44 : FVec Ideal Cert.ReferenceIdeal.S1x128 .f32)))
    (broadcastInDim Cert.ReferenceIdeal.S100000x128 ![] Cert.ReferenceIdeal.Facts₀.bcast_S_S100000x128
      (constant (F := Ideal) Cert.ReferenceIdeal.S_ .f32 0x00000000#32))

/-- The body's stored value, as one term of its two loads. -/
theorem pay_eq (x0 : Vec Ideal S10000x128 .f32) (x1 : Vec Ideal S1x128 .f32) :
    k1_pay1 x0 x1 = maximumf
      (addf (shapeCast S10000x128 x0 Facts₀.shapeCasts_S10000x128_S10000x128)
        (broadcastTo S10000x128 (shapeCast S1x128 x1 Facts₀.shapeCasts_S1x128_S1x128) Facts₀.broadcasts_S1x128_S10000x128))
      (broadcast S10000x128 (Scalar.ofBits (F := Ideal) .f32 0x00000000#32)) := rfl

/-- WHAT POINT t WRITES BACK is rows 10000·t … of max(X + bias, 0). -/
theorem flushed_eq (c : Dev nD) (t : Fin cfg1.N) :
    (dat1 V c).flushed 2 t = ((cfg1.win 2).blk t).view.read (Elt Ideal) (biased V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  rw [blk_in, blk_row, pay_eq, shapeCast_self (rows t.val (lt10 t) (V c main_v43))]
  rw [← rows_bias128 t.val (lt10 t) (V c main_v44), ← rows_zero128 t.val (lt10 t), ← rows_addf t.val (lt10 t), ← rows_maximumf t.val (lt10 t)]
  exact funext fun y => congrArg (biased V c) (emb_out t y).symm

/-- An index of the output array is in point t's block iff its row is among rows 10000·t … 10000·t + 9999. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The ten blocks tile the output: row r is in the block of point r / 10000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; omega⟩
  obtain ⟨-, -, -, -, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE OUTPUT ARRAY after the region: max(X + bias, 0) of the two arrays the region found. -/
theorem final (c : Dev nD) : (dat1 V c).arrAt 2 cfg1.N = biased V c :=
  (dat1 V c).arrAt_eq_of_cover 2 (biased V c) (fun t _ => flushed_eq V c t) (cover)

end Cert.KernelIdeal.Region1

end
-- ==== Proof.Region2.lean ====
/-
  Kernel region 2: a matrix product, ten thousand rows at a time.

  The region's grid has ten points. At point t the body loads rows 10000·t … 10000·t + 9999 of the left factor and
  the whole right factor, multiplies them into a zero accumulator, and stores the product as rows
  10000·t … 10000·t + 9999 of the output. A block of rows of a product is the product of that block of rows with
  the right factor, and the ten blocks tile the output, so after the region the output array is the host's
  `dot_general` of the two arrays as the region found them.
-/
import proofs.«152535_j412316860634_1_alg».proof.Proof.Gen.KernelIdeal.Frame
import proofs.«152535_j412316860634_1_alg».proof.Proof.Gen.ReferenceIdeal
import proofs.«152535_j412316860634_1_alg».proof.Proof.RowBlock

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The grid point's number is below ten. -/
theorem lt10 (t : Fin cfg2.N) : t.val < 10 := by have h : t.val < grid2.N := t.isLt; have hN : grid2.N = 10 := N_2; omega

/-- The index maps, decided over the grid: the left factor's and the output's blocks move down with the point, the
    right factor's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Where entry y of the left factor's block at point t sits in its array. -/
theorem emb_lhs (t : Fin cfg2.N) (y : S10000x128.Idx) : ((cfg2.win 0).blk t).view.emb y = rowAt t.val (lt10 t) y := by
  obtain ⟨e0, e1, -, -, -, -⟩ := idx_facts t
  funext a; apply Fin.ext
  match a with
  | ⟨0, _⟩ => show win2_0.index t (0 : Fin 2) * 10000 + 1 * (y 0).val = 10000 * t.val + (y 0).val; omega
  | ⟨1, _⟩ => show win2_0.index t (1 : Fin 2) * 128 + 1 * (y 1).val = (y 1).val; omega

/-- The right factor's block is the whole array. -/
theorem emb_rhs (t : Fin cfg2.N) (y : S128x128.Idx) : ((cfg2.win 1).blk t).view.emb y = y := by
  obtain ⟨-, -, e2, e3, -, -⟩ := idx_facts t
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Where entry y of the output's block at point t sits in its array. -/
theorem emb_out (t : Fin cfg2.N) (y : S10000x128.Idx) : ((cfg2.win 2).blk t).view.emb y = rowAt t.val (lt10 t) y := by
  obtain ⟨-, -, -, -, e4, e5⟩ := idx_facts t
  funext a; apply Fin.ext
  match a with
  | ⟨0, _⟩ => show win2_2.index t (0 : Fin 2) * 10000 + 1 * (y 0).val = 10000 * t.val + (y 0).val; omega
  | ⟨1, _⟩ => show win2_2.index t (1 : Fin 2) * 128 + 1 * (y 1).val = (y 1).val; omega

/-- The left factor's block at point t: its rows 10000·t … -/
theorem blk_lhs (c : Dev nD) (t : Fin cfg2.N) : iblk2 V c 0 t = rows t.val (lt10 t) (V c main_v45) :=
  funext fun y => congrArg (V c main_v45) (emb_lhs t y)

/-- The right factor's block at every point: the array. -/
theorem blk_rhs (c : Dev nD) (t : Fin cfg2.N) : iblk2 V c 1 t = V c main_arg6 :=
  funext fun y => congrArg (V c main_arg6) (emb_rhs t y)

/-- What the region leaves in the output array: the product of the two arrays it found. -/
abbrev product (c : Dev nD) : Buf (Elt Ideal) ((c : Thread nD τ).loc main_v76) :=
  Host.dotGeneral (F := Ideal) (φ₁ := .f32) (φ₂ := .f32) Cert.ReferenceIdeal.dot_S100000x128_S128x128_S100000x128_1_0_0_1_n_n none
    (V c main_v45 : FVec Ideal Cert.ReferenceIdeal.S100000x128 .f32) (V c main_arg6 : FVec Ideal Cert.ReferenceIdeal.S128x128 .f32)

/-- WHAT POINT t WRITES BACK is rows 10000·t … of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  rw [blk_lhs, blk_rhs]
  unfold k2_pay1
  rw [shapeCast_self]
  refine (rows_dot128 t.val (lt10 t) (V c main_v45) (V c main_arg6)).symm.trans ?_
  exact funext fun y => congrArg (product V c) (emb_out t y).symm

/-- An index of the output array is in point t's block iff its row is among rows 10000·t … 10000·t + 9999. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v76).slice (win2_2.rect t)).set ↔ _
  rw [View.set_slice_whole, Rect.mem_set_unit]
  exact Iff.rfl

/-- The ten blocks tile the output: row r is in the block of point r / 10000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  let t : Fin cfg2.N := ⟨(i 0).val / 10000, by show (i 0).val / 10000 < grid2.N; omega⟩
  obtain ⟨-, -, -, -, e4, e5⟩ := idx_facts t
  have e4' : win2_2.index t (0 : Fin 2) = (i 0).val / 10000 := e4
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE OUTPUT ARRAY after the region: the product of the two arrays the region found. -/
theorem final (c : Dev nD) : (dat2 V c).arrAt 2 cfg2.N = product V c :=
  (dat2 V c).arrAt_eq_of_cover 2 (product V c) (fun t _ => flushed_eq V c t) (cover)

end Cert.KernelIdeal.Region2

end
-- ==== Proof.Region3.lean ====
/-
  Kernel region 3: add the bias row and take the positive part, ten thousand rows at a time.

  The region's grid has ten points. At point t the body loads rows 10000·t … 10000·t + 9999 of the aggregated
  array and the one-row bias, adds the bias to every row, takes the maximum with zero entry by entry, and stores
  the result as the same rows of the output. Adding a row to every row and taking a maximum are entry-by-entry
  operations, so they commute with restricting to a block of rows; the ten blocks tile the output. After the
  region the output array is max(X + bias, 0) of the arrays as the region found them.
-/
import proofs.«152535_j412316860634_1_alg».proof.Proof.Gen.KernelIdeal.Frame
import proofs.«152535_j412316860634_1_alg».proof.Proof.Gen.ReferenceIdeal
import proofs.«152535_j412316860634_1_alg».proof.Proof.RowBlock

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The grid point's number is below ten. -/
theorem lt10 (t : Fin cfg3.N) : t.val < 10 := by have h : t.val < grid3.N := t.isLt; have hN : grid3.N = 10 := N_3; omega

/-- The index maps, decided over the grid: the input's and the output's blocks move down with the point, the bias
    row's block stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Where entry y of the input's block at point t sits in its array. -/
theorem emb_in (t : Fin cfg3.N) (y : S10000x128.Idx) : ((cfg3.win 0).blk t).view.emb y = rowAt t.val (lt10 t) y := by
  obtain ⟨e0, e1, -, -, -, -⟩ := idx_facts t
  funext a; apply Fin.ext
  match a with
  | ⟨0, _⟩ => show win3_0.index t (0 : Fin 2) * 10000 + 1 * (y 0).val = 10000 * t.val + (y 0).val; omega
  | ⟨1, _⟩ => show win3_0.index t (1 : Fin 2) * 128 + 1 * (y 1).val = (y 1).val; omega

/-- The bias row's block is the whole row. -/
theorem emb_row (t : Fin cfg3.N) (y : S1x128.Idx) : ((cfg3.win 1).blk t).view.emb y = y := by
  obtain ⟨-, -, e2, e3, -, -⟩ := idx_facts t
  funext a; apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Where entry y of the output's block at point t sits in its array. -/
theorem emb_out (t : Fin cfg3.N) (y : S10000x128.Idx) : ((cfg3.win 2).blk t).view.emb y = rowAt t.val (lt10 t) y := by
  obtain ⟨-, -, -, -, e4, e5⟩ := idx_facts t
  funext a; apply Fin.ext
  match a with
  | ⟨0, _⟩ => show win3_2.index t (0 : Fin 2) * 10000 + 1 * (y 0).val = 10000 * t.val + (y 0).val; omega
  | ⟨1, _⟩ => show win3_2.index t (1 : Fin 2) * 128 + 1 * (y 1).val = (y 1).val; omega

/-- The input's block at point t: its rows 10000·t … -/
theorem blk_in (c : Dev nD) (t : Fin cfg3.N) : iblk3 V c 0 t = rows t.val (lt10 t) (V c main_v89) :=
  funext fun y => congrArg (V c main_v89) (emb_in t y)

/-- The bias row's block at every point: the row. -/
theorem blk_row (c : Dev nD) (t : Fin cfg3.N) : iblk3 V c 1 t = V c main_v90 :=
  funext fun y => congrArg (V c main_v90) (emb_row t y)

/-- What the region leaves in the output array: max(X + bias, 0), entry by entry, in the host's spelling. -/
abbrev biased (c : Dev nD) : Buf (Elt Ideal) ((c : Thread nD τ).loc main_v91) :=
  maximumf
    (addf (V c main_v89 : FVec Ideal Cert.ReferenceIdeal.S100000x128 .f32)
      (broadcastInDim Cert.ReferenceIdeal.S100000x128 ![0, 1] Cert.ReferenceIdeal.Facts₀.bcast_S1x128_S100000x128_0_1
        (V c main_v90 : FVec Ideal Cert.ReferenceIdeal.S1x128 .f32)))
    (broadcastInDim Cert.ReferenceIdeal.S100000x128 ![] Cert.ReferenceIdeal.Facts₀.bcast_S_S100000x128
      (constant (F := Ideal) Cert.ReferenceIdeal.S_ .f32 0x00000000#32))

/-- The body's stored value, as one term of its two loads. -/
theorem pay_eq (x0 : Vec Ideal S10000x128 .f32) (x1 : Vec Ideal S1x128 .f32) :
    k3_pay1 x0 x1 = maximumf
      (addf (shapeCast S10000x128 x0 Facts₀.shapeCasts_S10000x128_S10000x128)
        (broadcastTo S10000x128 (shapeCast S1x128 x1 Facts₀.shapeCasts_S1x128_S1x128) Facts₀.broadcasts_S1x128_S10000x128))
      (broadcast S10000x128 (Scalar.ofBits (F := Ideal) .f32 0x00000000#32)) := rfl

/-- WHAT POINT t WRITES BACK is rows 10000·t … of max(X + bias, 0). -/
theorem flushed_eq (c : Dev nD) (t : Fin cfg3.N) :
    (dat3 V c).flushed 2 t = ((cfg3.win 2).blk t).view.read (Elt Ideal) (biased V c) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  rw [blk_in, blk_row, pay_eq, shapeCast_self (rows t.val (lt10 t) (V c main_v89))]
  rw [← rows_bias128 t.val (lt10 t) (V c main_v90), ← rows_zero128 t.val (lt10 t), ← rows_addf t.val (lt10 t), ← rows_maximumf t.val (lt10 t)]
  exact funext fun y => congrArg (biased V c) (emb_out t y).symm

/-- An index of the output array is in point t's block iff its row is among rows 10000·t … 10000·t + 9999. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v91).slice (win3_2.rect t)).set ↔ _
  rw [View.set_slice_whole, Rect.mem_set_unit]
  exact Iff.rfl

/-- The ten blocks tile the output: row r is in the block of point r / 10000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  let t : Fin cfg3.N := ⟨(i 0).val / 10000, by show (i 0).val / 10000 < grid3.N; omega⟩
  obtain ⟨-, -, -, -, e4, e5⟩ := idx_facts t
  have e4' : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- THE OUTPUT ARRAY after the region: max(X + bias, 0) of the two arrays the region found. -/
theorem final (c : Dev nD) : (dat3 V c).arrAt 2 cfg3.N = biased V c :=
  (dat3 V c).arrAt_eq_of_cover 2 (biased V c) (fun t _ => flushed_eq V c t) (cover)

end Cert.KernelIdeal.Region3

end
-- ==== Proof.Region4.lean ====
/-
  Kernel region 4: the four-layer scoring network, ten thousand rows at a time.

  The region's grid has ten points. At point t the body loads rows 10000·t … 10000·t + 9999 of the two gathered
  feature arrays and the whole of the four weight matrices and bias rows; it joins the two feature blocks side by
  side, and four times over multiplies by a weight matrix, adds the bias row to every row and takes the maximum with
  zero; it stores the last result, one column wide, as the same rows of the output. Each of these steps commutes
  with restricting to a block of rows (a block of rows of a product is that block times the right factor; the
  others act entry by entry or row by row), and the ten blocks tile the output. After the region the output array
  is the host's spelling of the same network applied to the whole arrays the region found.
-/
import proofs.«152535_j412316860634_1_alg».proof.Proof.Gen.KernelIdeal.Frame
import proofs.«152535_j412316860634_1_alg».proof.Proof.Gen.ReferenceIdeal
import proofs.«152535_j412316860634_1_alg».proof.Proof.RowBlock

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowBlock

variable (V : (c : Dev nD) → (b : Ref sig .tc) → Buf (Elt Ideal) ((c : Thread nD τ).loc b))

theorem hz : (![0, 0] : Fin 2 → Nat) = fun _ => 0 := funext fun a => by fin_cases a <;> rfl

/-- The grid point's number is below ten. -/
theorem lt10 (t : Fin cfg4.N) : t.val < 10 := by have h : t.val < grid4.N := t.isLt; have hN : grid4.N = 10 := N_4; omega

/-- The index maps of the row-tiled windows, decided over the grid: the two feature arrays' and the output's blocks
    move down with the point. -/
theorem idx_rows : ∀ t : Fin cfg4.N, win4_0.index t (0 : Fin 2) = t.val ∧ win4_0.index t (1 : Fin 2) = 0
    ∧ win4_1.index t (0 : Fin 2) = t.val ∧ win4_1.index t (1 : Fin 2) = 0
    ∧ win4_10.index t (0 : Fin 2) = t.val ∧ win4_10.index t (1 : Fin 2) = 0 :=
  (by decide +kernel : ∀ t : Fin grid4.N, _)

/-- The index maps of the weights' and bias rows' windows: their one block stays. -/
theorem idx_const : ∀ t : Fin cfg4.N, win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

/-- Where entry y of the first feature block at point t sits in its array. -/
theorem emb_0 (t : Fin cfg4.N) (y : S10000x128.Idx) : ((cfg4.win 0).blk t).view.emb y = rowAt t.val (lt10 t) y := by
  obtain ⟨e0, e1, -, -, -, -⟩ := idx_rows t
  funext a; apply Fin.ext
  match a with
  | ⟨0, _⟩ => show win4_0.index t (0 : Fin 2) * 10000 + 1 * (y 0).val = 10000 * t.val + (y 0).val; omega
  | ⟨1, _⟩ => show win4_0.index t (1 : Fin 2) * 128 + 1 * (y 1).val = (y 1).val; omega

/-- Where entry y of the second feature block at point t sits in its array. -/
theorem emb_1 (t : Fin cfg4.N) (y : S10000x128.Idx) : ((cfg4.win 1).blk t).view.emb y = rowAt t.val (lt10 t) y := by
  obtain ⟨-, -, e0, e1, -, -⟩ := idx_rows t
  funext a; apply Fin.ext
  match a with
  | ⟨0, _⟩ => show win4_1.index t (0 : Fin 2) * 10000 + 1 * (y 0).val = 10000 * t.val + (y 0).val; omega
  | ⟨1, _⟩ => show win4_1.index t (1 : Fin 2) * 128 + 1 * (y 1).val = (y 1).val; omega

/-- Where entry y of the output's block at point t sits in its array. -/
theorem emb_out (t : Fin cfg4.N) (y : S10000x1.Idx) : ((cfg4.win 10).blk t).view.emb y = rowAt t.val (lt10 t) y := by
  obtain ⟨-, -, -, -, e0, e1⟩ := idx_rows t
  funext a; apply Fin.ext
  match a with
  | ⟨0, _⟩ => show win4_10.index t (0 : Fin 2) * 10000 + 1 * (y 0).val = 10000 * t.val + (y 0).val; omega
  | ⟨1, _⟩ => show win4_10.index t (1 : Fin 2) * 1 + 1 * (y 1).val = (y 1).val; omega

theorem blk_0 (c : Dev nD) (t : Fin cfg4.N) : iblk4 V c 0 t = rows t.val (lt10 t) (V c main_v100) :=
  funext fun y => congrArg (V c main_v100) (emb_0 t y)

theorem blk_1 (c : Dev nD) (t : Fin cfg4.N) : iblk4 V c 1 t = rows t.val (lt10 t) (V c main_v109) :=
  funext fun y => congrArg (V c main_v109) (emb_1 t y)

/-- Window 2's block is its whole array. -/
theorem emb_2 (t : Fin cfg4.N) (y : S256x128.Idx) : ((cfg4.win 2).blk t).view.emb y = y := by
  obtain ⟨e0, e1, -, -, -, -, -, -, -, -, -, -, -, -, -, -⟩ := idx_const t
  funext a; apply Fin.ext
  match a with
  | ⟨0, _⟩ => show win4_2.index t (0 : Fin 2) * 256 + 1 * (y 0).val = (y 0).val; omega
  | ⟨1, _⟩ => show win4_2.index t (1 : Fin 2) * 128 + 1 * (y 1).val = (y 1).val; omega

theorem blk_2 (c : Dev nD) (t : Fin cfg4.N) : iblk4 V c 2 t = V c main_arg12 :=
  funext fun y => congrArg (V c main_arg12) (emb_2 t y)

/-- Window 3's block is its whole array. -/
theorem emb_3 (t : Fin cfg4.N) (y : S1x128.Idx) : ((cfg4.win 3).blk t).view.emb y = y := by
  obtain ⟨-, -, e0, e1, -, -, -, -, -, -, -, -, -, -, -, -⟩ := idx_const t
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem blk_3 (c : Dev nD) (t : Fin cfg4.N) : iblk4 V c 3 t = V c main_v110 :=
  funext fun y => congrArg (V c main_v110) (emb_3 t y)

/-- Window 4's block is its whole array. -/
theorem emb_4 (t : Fin cfg4.N) (y : S128x128.Idx) : ((cfg4.win 4).blk t).view.emb y = y := by
  obtain ⟨-, -, -, -, e0, e1, -, -, -, -, -, -, -, -, -, -⟩ := idx_const t
  funext a; apply Fin.ext
  match a with
  | ⟨0, _⟩ => show win4_4.index t (0 : Fin 2) * 128 + 1 * (y 0).val = (y 0).val; omega
  | ⟨1, _⟩ => show win4_4.index t (1 : Fin 2) * 128 + 1 * (y 1).val = (y 1).val; omega

theorem blk_4 (c : Dev nD) (t : Fin cfg4.N) : iblk4 V c 4 t = V c main_arg14 :=
  funext fun y => congrArg (V c main_arg14) (emb_4 t y)

/-- Window 5's block is its whole array. -/
theorem emb_5 (t : Fin cfg4.N) (y : S1x128.Idx) : ((cfg4.win 5).blk t).view.emb y = y := by
  obtain ⟨-, -, -, -, -, -, e0, e1, -, -, -, -, -, -, -, -⟩ := idx_const t
  funext a; apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

theorem blk_5 (c : Dev nD) (t : Fin cfg4.N) : iblk4 V c 5 t = V c main_v111 :=
  funext fun y => congrArg (V c main_v111) (emb_5 t y)

/-- Window 6's block is its whole array. -/
theorem emb_6 (t : Fin cfg4.N) (y : S128x128.Idx) : ((cfg4.win 6).blk t).view.emb y = y := by
  obtain ⟨-, -, -, -, -, -, -, -, e0, e1, -, -, -, -, -, -⟩ := idx_const t
  funext a; apply Fin.ext
  match a with
  | ⟨0, _⟩ => show win4_6.index t (0 : Fin 2) * 128 + 1 * (y 0).val = (y 0).val; omega
  | ⟨1, _⟩ => show win4_6.index t (1 : Fin 2) * 128 + 1 * (y 1).val = (y 1).val; omega

theorem blk_6 (c : Dev nD) (t : Fin cfg4.N) : iblk4 V c 6 t = V c main_arg16 :=
  funext fun y => congrArg (V c main_arg16) (emb_6 t y)

/-- Window 7's block is its whole array. -/
theorem emb_7 (t : Fin cfg4.N) (y : S1x128.Idx) : ((cfg4.win 7).blk t).view.emb y = y := by
  obtain ⟨-, -, -, -, -, -, -, -, -, -, e0, e1, -, -, -, -⟩ := idx_const t
  funext a; apply Fin.ext
  match a with
  | ⟨0, _⟩ => show win4_7.index t (0 : Fin 2) * 1 + 1 * (y 0).val = (y 0).val; omega
  | ⟨1, _⟩ => show win4_7.index t (1 : Fin 2) * 128 + 1 * (y 1).val = (y 1).val; omega

theorem blk_7 (c : Dev nD) (t : Fin cfg4.N) : iblk4 V c 7 t = V c main_v112 :=
  funext fun y => congrArg (V c main_v112) (emb_7 t y)

/-- Window 8's block is its whole array. -/
theorem emb_8 (t : Fin cfg4.N) (y : S128x1.Idx) : ((cfg4.win 8).blk t).view.emb y = y := by
  obtain ⟨-, -, -, -, -, -, -, -, -, -, -, -, e0, e1, -, -⟩ := idx_const t
  funext a; apply Fin.ext
  match a with
  | ⟨0, _⟩ => show win4_8.index t (0 : Fin 2) * 128 + 1 * (y 0).val = (y 0).val; omega
  | ⟨1, _⟩ => show win4_8.index t (1 : Fin 2) * 1 + 1 * (y 1).val = (y 1).val; omega

theorem blk_8 (c : Dev nD) (t : Fin cfg4.N) : iblk4 V c 8 t = V c main_arg18 :=
  funext fun y => congrArg (V c main_arg18) (emb_8 t y)

/-- Window 9's block is its whole array. -/
theorem emb_9 (t : Fin cfg4.N) (y : S1x1.Idx) : ((cfg4.win 9).blk t).view.emb y = y := by
  obtain ⟨-, -, -, -, -, -, -, -, -, -, -, -, -, -, e0, e1⟩ := idx_const t
  funext a; apply Fin.ext
  match a with
  | ⟨0, _⟩ => show win4_9.index t (0 : Fin 2) * 1 + 1 * (y 0).val = (y 0).val; omega
  | ⟨1, _⟩ => show win4_9.index t (1 : Fin 2) * 1 + 1 * (y 1).val = (y 1).val; omega

theorem blk_9 (c : Dev nD) (t : Fin cfg4.N) : iblk4 V c 9 t = V c main_v113 :=
  funext fun y => congrArg (V c main_v113) (emb_9 t y)

/-! ## The network on whole arrays, in the host's spelling -/

/-- The zero array a maximum is taken against, 128 columns wide. -/
abbrev zero128 : FVec Ideal Cert.ReferenceIdeal.S100000x128 .f32 :=
  broadcastInDim Cert.ReferenceIdeal.S100000x128 ![] Cert.ReferenceIdeal.Facts₀.bcast_S_S100000x128 (constant (F := Ideal) Cert.ReferenceIdeal.S_ .f32 0x00000000#32)

/-- The same, one column wide. -/
abbrev zero1 : FVec Ideal Cert.ReferenceIdeal.S100000x1 .f32 :=
  broadcastInDim Cert.ReferenceIdeal.S100000x1 ![] Cert.ReferenceIdeal.Facts₀.bcast_S_S100000x1 (constant (F := Ideal) Cert.ReferenceIdeal.S_ .f32 0x00000000#32)

/-- A bias row on every row. -/
abbrev row128 (b : FVec Ideal Cert.ReferenceIdeal.S1x128 .f32) : FVec Ideal Cert.ReferenceIdeal.S100000x128 .f32 :=
  broadcastInDim Cert.ReferenceIdeal.S100000x128 ![0, 1] Cert.ReferenceIdeal.Facts₀.bcast_S1x128_S100000x128_0_1 b

/-- The two gathered feature arrays side by side. -/
abbrev joined (c : Dev nD) : FVec Ideal Cert.ReferenceIdeal.S100000x256 .f32 :=
  concatenate Cert.ReferenceIdeal.S100000x256 1 [⟨Cert.ReferenceIdeal.S100000x128, (V c main_v100 : FVec Ideal Cert.ReferenceIdeal.S100000x128 .f32)⟩, ⟨Cert.ReferenceIdeal.S100000x128, (V c main_v109 : FVec Ideal Cert.ReferenceIdeal.S100000x128 .f32)⟩]
    Cert.ReferenceIdeal.Facts₀.concatenates_S100000x128_S100000x128_S100000x256_d1

/-- First layer. -/
abbrev hidden1 (c : Dev nD) : FVec Ideal Cert.ReferenceIdeal.S100000x128 .f32 :=
  maximumf (addf (Host.dotGeneral (F := Ideal) (φ₁ := .f32) (φ₂ := .f32) Cert.ReferenceIdeal.dot_S100000x256_S256x128_S100000x128_1_0_0_1_n_n none (joined V c) (V c main_arg12 : FVec Ideal Cert.ReferenceIdeal.S256x128 .f32))
    (row128 (V c main_v110 : FVec Ideal Cert.ReferenceIdeal.S1x128 .f32))) zero128

/-- Second layer. -/
abbrev hidden2 (c : Dev nD) : FVec Ideal Cert.ReferenceIdeal.S100000x128 .f32 :=
  maximumf (addf (Host.dotGeneral (F := Ideal) (φ₁ := .f32) (φ₂ := .f32) Cert.ReferenceIdeal.dot_S100000x128_S128x128_S100000x128_1_0_0_1_n_n none (hidden1 V c) (V c main_arg14 : FVec Ideal Cert.ReferenceIdeal.S128x128 .f32))
    (row128 (V c main_v111 : FVec Ideal Cert.ReferenceIdeal.S1x128 .f32))) zero128

/-- Third layer. -/
abbrev hidden3 (c : Dev nD) : FVec Ideal Cert.ReferenceIdeal.S100000x128 .f32 :=
  maximumf (addf (Host.dotGeneral (F := Ideal) (φ₁ := .f32) (φ₂ := .f32) Cert.ReferenceIdeal.dot_S100000x128_S128x128_S100000x128_1_0_0_1_n_n none (hidden2 V c) (V c main_arg16 : FVec Ideal Cert.ReferenceIdeal.S128x128 .f32))
    (row128 (V c main_v112 : FVec Ideal Cert.ReferenceIdeal.S1x128 .f32))) zero128

/-- What the region leaves in the output array: the fourth layer, one column wide. -/
abbrev score (c : Dev nD) : FVec Ideal Cert.ReferenceIdeal.S100000x1 .f32 :=
  maximumf (addf (Host.dotGeneral (F := Ideal) (φ₁ := .f32) (φ₂ := .f32) Cert.ReferenceIdeal.dot_S100000x128_S128x1_S100000x1_1_0_0_1_n_n none (hidden3 V c) (V c main_arg18 : FVec Ideal Cert.ReferenceIdeal.S128x1 .f32))
    (broadcastInDim Cert.ReferenceIdeal.S100000x1 ![0, 1] Cert.ReferenceIdeal.Facts₀.bcast_S1x1_S100000x1_0_1 (V c main_v113 : FVec Ideal Cert.ReferenceIdeal.S1x1 .f32))) zero1

/-- Rows 10000·t … of the network's result are the body's stored value of those rows of the two feature arrays:
    restriction to the block moves inward through every layer. -/
theorem rows_score (c : Dev nD) (t : Fin cfg4.N) :
    rows t.val (lt10 t) (score V c)
      = k4_pay1 (k4_pay2 (rows t.val (lt10 t) (V c main_v100)) (rows t.val (lt10 t) (V c main_v109)) (V c main_arg12) (V c main_v110)
          (V c main_arg14) (V c main_v111) (V c main_arg16) (V c main_v112) (V c main_arg18)) (V c main_v113) := by
  simp only [score, hidden3, hidden2, hidden1, joined, row128, zero128, zero1, rows_maximumf, rows_addf, rows_dot1, rows_dot128,
    rows_dot256, rows_bias1, rows_bias128, rows_zero1, rows_zero128, rows_concat]
  unfold k4_pay1 k4_pay2
  rw [shapeCast_self (rows t.val (lt10 t) (V c main_v100)), shapeCast_self (rows t.val (lt10 t) (V c main_v109))]
  rw [rows_bias128 t.val (lt10 t) (V c main_v110), rows_bias128 t.val (lt10 t) (V c main_v111), rows_bias128 t.val (lt10 t) (V c main_v112),
    rows_zero128 t.val (lt10 t), rows_bias1 t.val (lt10 t) (V c main_v113), rows_zero1 t.val (lt10 t)]
  first | done | rfl

/-- WHAT POINT t WRITES BACK is rows 10000·t … of the network's result. -/
theorem flushed_eq (c : Dev nD) (t : Fin cfg4.N) :
    (dat4 V c).flushed 10 t = ((cfg4.win 10).blk t).view.read (Elt Ideal) (score V c) := by
  show (cfg4.win 10).cut (grid4.coords t) ((dat4 V c).after 10 t) = _
  rw [after4_10]
  unfold out4_10
  rw [View.canon_unit_zero hz]
  simp only [View.ld_unit_zero (S := S10000x128) hz, View.ld_unit_zero (S := S256x128) hz, View.ld_unit_zero (S := S1x128) hz,
    View.ld_unit_zero (S := S128x128) hz, View.ld_unit_zero (S := S128x1) hz, View.ld_unit_zero (S := S1x1) hz]
  rw [blk_0, blk_1, blk_2, blk_3, blk_4, blk_5, blk_6, blk_7, blk_8, blk_9, ← rows_score]
  exact funext fun y => congrArg (score V c) (emb_out t y).symm

/-- An index of the output array is in point t's block iff its row is among rows 10000·t … 10000·t + 9999. -/
theorem mem_blk (t : Fin cfg4.N) (i : S100000x1.Idx) :
    i ∈ ((cfg4.win 10).blk t).view.set ↔ ∀ a : Fin 2, win4_10.index t a * S10000x1.size a ≤ (i a).val ∧ (i a).val < win4_10.index t a * S10000x1.size a + S10000x1.size a := by
  show i ∈ ((View.whole main_v114).slice (win4_10.rect t)).set ↔ _
  rw [View.set_slice_whole, Rect.mem_set_unit]
  exact Iff.rfl

/-- The ten blocks tile the output: row r is in the block of point r / 10000. -/
theorem cover (i : S100000x1.Idx) : ∃ t : Fin cfg4.N, (cfg4.win 10).flush t = true ∧ i ∈ ((cfg4.win 10).blk t).view.set := by
  have hi0 : (i 0).val < 100000 := (i 0).isLt
  have hi1 : (i 1).val < 1 := (i 1).isLt
  have hN : grid4.N = 10 := N_4
  let t : Fin cfg4.N := ⟨(i 0).val / 10000, by show (i 0).val / 10000 < grid4.N; omega⟩
  obtain ⟨-, -, -, -, e4, e5⟩ := idx_rows t
  have e4' : win4_10.index t (0 : Fin 2) = (i 0).val / 10000 := e4
  refine ⟨t, flush4_10 t, ?_⟩
  rw [mem_blk]
  intro a
  match a with
  | ⟨0, _⟩ => show win4_10.index t (0 : Fin 2) * 10000 ≤ (i 0).val ∧ (i 0).val < win4_10.index t (0 : Fin 2) * 10000 + 10000; omega
  | ⟨1, _⟩ => show win4_10.index t (1 : Fin 2) * 1 ≤ (i 1).val ∧ (i 1).val < win4_10.index t (1 : Fin 2) * 1 + 1; omega

/-- THE OUTPUT ARRAY after the region: the network's result on the arrays the region found. -/
theorem final (c : Dev nD) : (dat4 V c).arrAt 10 cfg4.N = score V c :=
  (dat4 V c).arrAt_eq_of_cover 10 (score V c) (fun t _ => flushed_eq V c t) (cover)

end Cert.KernelIdeal.Region4

end
-- ==== Proof.LibBiasRow.lean ====
/-
  A vector of n entries laid out as a row [1, n] — two spellings of one array.

  jnp writes `b[None, :]` either as `broadcast_in_dim` with the vector's axis sent to axis 1, or as a reshape
  [n] → [1, n]. Both read, at (0, i), the vector at i: the broadcast because axis 1 of the result is the
  vector's axis and axis 0 is new, the reshape because row-major position 0·n + i is position i. So the two
  rows are equal as arrays, for every n and every element type.
-/
import Idealize.ShloMosaic.PureOps.Ideal
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- A vector [n] broadcast in dimension 1 to a row [1, n] is the vector reshaped to [1, n]. -/
theorem bcastRow_eq_reshape {n : Nat} {α : Type} (x : (⟨1, ![n]⟩ : Shape).Idx → α)
    (hb : (⟨1, ![n]⟩ : Shape).BroadcastsInDim ⟨2, ![1, n]⟩ ![1])
    (hs : (⟨1, ![n]⟩ : Shape).ShapeCasts ⟨2, ![1, n]⟩) :
    broadcastInDim ⟨2, ![1, n]⟩ ![1] hb x = shapeCast ⟨2, ![1, n]⟩ x hs := by
  funext j
  obtain ⟨u, i, rfl⟩ : ∃ (u : Fin 1) (i : Fin n), j = ix2 u i := ⟨j 0, j 1, eq_ix2 j⟩
  rw [shapeCast_a_1a_apply]
  refine broadcastInDim_apply _ hb x _ (ix1 i) (fun a => ?_)
  match a with
  | ⟨0, _⟩ =>
    show i.val = if n = 1 then 0 else i.val
    have := i.isLt
    split <;> omega

end Cert.LibBiasRow

end
-- ==== Proof.Walk.lean ====
/-
  The idealized kernel's result, walked back to the arguments.

  @main's buffer contents at each boundary are a fold from the launch memory. An argument array is written by
  nothing, so at every boundary it still holds its launch contents. A host stretch's results are its operations'
  terms of what the stretch found; a region's output is its closed form of the arrays it found (a matrix product;
  max(X + bias, 0); the four-layer scoring network). Read layer by layer, these are exactly the stages of the
  reference's own computation, applied to the same arguments: the degree normalisation and the gather /
  scatter-add aggregation are the same host operations on both sides, each kernel region stands where the
  reference has its `dot_general`, its add-and-maximum or its dense layers, and the kernel's bias rows, reshaped
  [n] → [1, n], are the reference's rows broadcast along axis 1. So the kernel's result array is the reference's
  result stage of the arguments. No step needs an entry to be finite.
-/
import proofs.«152535_j412316860634_1_alg».proof.Proof.Gen.KernelIdeal.Frame
import proofs.«152535_j412316860634_1_alg».proof.Proof.RefRead
import proofs.«152535_j412316860634_1_alg».proof.Proof.Region0
import proofs.«152535_j412316860634_1_alg».proof.Proof.Region1
import proofs.«152535_j412316860634_1_alg».proof.Proof.Region2
import proofs.«152535_j412316860634_1_alg».proof.Proof.Region3
import proofs.«152535_j412316860634_1_alg».proof.Proof.Region4
import proofs.«152535_j412316860634_1_alg».proof.Proof.LibBiasRow

set_option maxRecDepth 16384

noncomputable section

namespace Cert.KernelIdeal.Walk

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)

/-- An array's launch contents on core c. -/
abbrev A (b : Ref sig .tc) : Buf (Elt Ideal) ((c : Thread nD τ).loc b) := m ((c : Thread nD τ).loc b)

/-- A stretch of host operations leaves a buffer none of them writes as it found it: the goal
    `after ops W b = W b`, the operations' written references compared with b one by one. -/
local macro "keep_ops" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The arguments at the boundaries where something reads them -/

theorem W3_arg0 : W3 m ρ c (Proc.devRef .tc main_arg0) = (A m c main_arg0) :=
  calc W3 m ρ c (Proc.devRef .tc main_arg0)
    _ = W2 m ρ c (Proc.devRef .tc main_arg0) := by keep_ops hostOps0_2
    _ = W1 m ρ c (Proc.devRef .tc main_arg0) := by keep_ops hostOps0_1
    _ = W0 m ρ c (Proc.devRef .tc main_arg0) := by keep_ops hostOps0
    _ = _ := rfl

theorem W3_arg4 : W3 m ρ c (Proc.devRef .tc main_arg4) = (A m c main_arg4) :=
  calc W3 m ρ c (Proc.devRef .tc main_arg4)
    _ = W2 m ρ c (Proc.devRef .tc main_arg4) := by keep_ops hostOps0_2
    _ = W1 m ρ c (Proc.devRef .tc main_arg4) := by keep_ops hostOps0_1
    _ = W0 m ρ c (Proc.devRef .tc main_arg4) := by keep_ops hostOps0
    _ = _ := rfl

theorem W3_arg5 : W3 m ρ c (Proc.devRef .tc main_arg5) = (A m c main_arg5) :=
  calc W3 m ρ c (Proc.devRef .tc main_arg5)
    _ = W2 m ρ c (Proc.devRef .tc main_arg5) := by keep_ops hostOps0_2
    _ = W1 m ρ c (Proc.devRef .tc main_arg5) := by keep_ops hostOps0_1
    _ = W0 m ρ c (Proc.devRef .tc main_arg5) := by keep_ops hostOps0
    _ = _ := rfl

theorem W3_arg2 : W3 m ρ c (Proc.devRef .tc main_arg2) = (A m c main_arg2) :=
  calc W3 m ρ c (Proc.devRef .tc main_arg2)
    _ = W2 m ρ c (Proc.devRef .tc main_arg2) := by keep_ops hostOps0_2
    _ = W1 m ρ c (Proc.devRef .tc main_arg2) := by keep_ops hostOps0_1
    _ = W0 m ρ c (Proc.devRef .tc main_arg2) := by keep_ops hostOps0
    _ = _ := rfl

theorem W4_arg5 : W4 m ρ c (Proc.devRef .tc main_arg5) = (A m c main_arg5) :=
  (W4_of_ne m ρ c main_arg5 (by decide)).trans (W3_arg5 m ρ c)

theorem W6_arg2 : W6 m ρ c (Proc.devRef .tc main_arg2) = (A m c main_arg2) :=
  calc W6 m ρ c (Proc.devRef .tc main_arg2)
    _ = W5 m ρ c (Proc.devRef .tc main_arg2) := W6_of_ne m ρ c main_arg2 (by decide)
    _ = W4 m ρ c (Proc.devRef .tc main_arg2) := by keep_ops hostOps1
    _ = W3 m ρ c (Proc.devRef .tc main_arg2) := W4_of_ne m ρ c main_arg2 (by decide)
    _ = _ := W3_arg2 m ρ c

/-- From region 3's exit on nothing reads or writes this argument but region 4's windows and the last stretch. -/
theorem W12_of_W14 (b : Ref sig .tc) (h13 : W13 m ρ c (Proc.devRef .tc b) = W12 m ρ c (Proc.devRef .tc b))
    (h14 : W14 m ρ c (Proc.devRef .tc b) = W13 m ρ c (Proc.devRef .tc b)) (hb : W14 m ρ c (Proc.devRef .tc b) = A m c b) :
    W12 m ρ c (Proc.devRef .tc b) = A m c b := h13.symm.trans (h14.symm.trans hb)

theorem W12_arg3 : W12 m ρ c (Proc.devRef .tc main_arg3) = (A m c main_arg3) :=
  W12_of_W14 m ρ c main_arg3 (by keep_ops hostOps4) (W14_of_ne m ρ c main_arg3 (by decide)) (W14_main_arg3 m ρ c)
theorem W12_arg13 : W12 m ρ c (Proc.devRef .tc main_arg13) = (A m c main_arg13) :=
  W12_of_W14 m ρ c main_arg13 (by keep_ops hostOps4) (W14_of_ne m ρ c main_arg13 (by decide)) (W14_main_arg13 m ρ c)
theorem W12_arg15 : W12 m ρ c (Proc.devRef .tc main_arg15) = (A m c main_arg15) :=
  W12_of_W14 m ρ c main_arg15 (by keep_ops hostOps4) (W14_of_ne m ρ c main_arg15 (by decide)) (W14_main_arg15 m ρ c)
theorem W12_arg17 : W12 m ρ c (Proc.devRef .tc main_arg17) = (A m c main_arg17) :=
  W12_of_W14 m ρ c main_arg17 (by keep_ops hostOps4) (W14_of_ne m ρ c main_arg17 (by decide)) (W14_main_arg17 m ρ c)
theorem W12_arg19 : W12 m ρ c (Proc.devRef .tc main_arg19) = (A m c main_arg19) :=
  W12_of_W14 m ρ c main_arg19 (by keep_ops hostOps4) (W14_of_ne m ρ c main_arg19 (by decide)) (W14_main_arg19 m ρ c)

/-- The weight matrices are input windows of region 4: it leaves them as it found them. -/
theorem V13_arg12 : V13 m ρ c main_arg12 = (A m c main_arg12) :=
  ((W14_arr m ρ c 2).trans (((dat4 (V13 m ρ) c).arrAt_in 2 rfl _).trans (A_eq4 (V13 m ρ) c 2))).symm.trans (W14_main_arg12 m ρ c)
theorem V13_arg14 : V13 m ρ c main_arg14 = (A m c main_arg14) :=
  ((W14_arr m ρ c 4).trans (((dat4 (V13 m ρ) c).arrAt_in 4 rfl _).trans (A_eq4 (V13 m ρ) c 4))).symm.trans (W14_main_arg14 m ρ c)
theorem V13_arg16 : V13 m ρ c main_arg16 = (A m c main_arg16) :=
  ((W14_arr m ρ c 6).trans (((dat4 (V13 m ρ) c).arrAt_in 6 rfl _).trans (A_eq4 (V13 m ρ) c 6))).symm.trans (W14_main_arg16 m ρ c)
theorem V13_arg18 : V13 m ρ c main_arg18 = (A m c main_arg18) :=
  ((W14_arr m ρ c 8).trans (((dat4 (V13 m ρ) c).arrAt_in 8 rfl _).trans (A_eq4 (V13 m ρ) c 8))).symm.trans (W14_main_arg18 m ρ c)

theorem W10_arg7 : W10 m ρ c (Proc.devRef .tc main_arg7) = (A m c main_arg7) :=
  calc W10 m ρ c (Proc.devRef .tc main_arg7)
    _ = W11 m ρ c (Proc.devRef .tc main_arg7) := (by keep_ops hostOps3 : W11 m ρ c (Proc.devRef .tc main_arg7) = W10 m ρ c (Proc.devRef .tc main_arg7)).symm
    _ = W12 m ρ c (Proc.devRef .tc main_arg7) := (W12_of_ne m ρ c main_arg7 (by decide)).symm
    _ = _ := W12_of_W14 m ρ c main_arg7 (by keep_ops hostOps4) (W14_of_ne m ρ c main_arg7 (by decide)) (W14_main_arg7 m ρ c)

/-- The second layer's weight matrix is an input window of region 2. -/
theorem V9_arg6 : V9 m ρ c main_arg6 = (A m c main_arg6) :=
  calc W9 m ρ c (Proc.devRef .tc main_arg6)
    _ = W10 m ρ c (Proc.devRef .tc main_arg6) := ((W10_arr m ρ c 1).trans (((dat2 (V9 m ρ) c).arrAt_in 1 rfl _).trans (A_eq2 (V9 m ρ) c 1))).symm
    _ = W11 m ρ c (Proc.devRef .tc main_arg6) := (by keep_ops hostOps3 : W11 m ρ c (Proc.devRef .tc main_arg6) = W10 m ρ c (Proc.devRef .tc main_arg6)).symm
    _ = W12 m ρ c (Proc.devRef .tc main_arg6) := (W12_of_ne m ρ c main_arg6 (by decide)).symm
    _ = _ := W12_of_W14 m ρ c main_arg6 (by keep_ops hostOps4) (W14_of_ne m ρ c main_arg6 (by decide)) (W14_main_arg6 m ρ c)

/-! ## Layer 1 -/

/-- Source nodes with the self-loops appended. -/
theorem W3_v5 : W3 m ρ c (Proc.devRef .tc main_v5) = val_main_v5 (F := Ideal) (A m c main_arg2) := by
  show StableHlo.after hostOps0_2 (StableHlo.after hostOps0_1 (StableHlo.after hostOps0 (W0 m ρ c))) (Proc.devRef .tc main_v5) = _
  after_results
  rfl

/-- Target nodes with the self-loops appended. -/
theorem W3_v6 : W3 m ρ c (Proc.devRef .tc main_v6) = val_main_v6 (F := Ideal) (A m c main_arg2) := by
  show StableHlo.after hostOps0_2 (StableHlo.after hostOps0_1 (StableHlo.after hostOps0 (W0 m ρ c))) (Proc.devRef .tc main_v6) = _
  after_results
  rfl

/-- Is a node's degree positive? (Before the reference's and the kernel's `where`.) -/
theorem W1_v12 : W1 m ρ c (Proc.devRef .tc main_v12) = val_main_v12 (F := Ideal) (A m c main_arg2) := by
  show StableHlo.after hostOps0 (W0 m ρ c) (Proc.devRef .tc main_v12) = _
  after_results
  rfl

/-- The inverse square root of the degree. -/
theorem W1_v13 : W1 m ρ c (Proc.devRef .tc main_v13) = val_main_v13 (F := Ideal) (A m c main_arg2) := by
  show StableHlo.after hostOps0 (W0 m ρ c) (Proc.devRef .tc main_v13) = _
  after_results
  rfl

theorem W1_cst_2 : W1 m ρ c (Proc.devRef .tc main_cst_2) = val_main_cst_2 (F := Ideal) := by
  show StableHlo.after hostOps0 (W0 m ρ c) (Proc.devRef .tc main_cst_2) = _
  after_results
  rfl

theorem W1_v5 : W1 m ρ c (Proc.devRef .tc main_v5) = val_main_v5 (F := Ideal) (A m c main_arg2) := by
  show StableHlo.after hostOps0 (W0 m ρ c) (Proc.devRef .tc main_v5) = _
  after_results
  rfl

theorem W1_v6 : W1 m ρ c (Proc.devRef .tc main_v6) = val_main_v6 (F := Ideal) (A m c main_arg2) := by
  show StableHlo.after hostOps0 (W0 m ρ c) (Proc.devRef .tc main_v6) = _
  after_results
  rfl

/-- The `where` of layer 1 over any contents: the three operations' term of what they read. -/
theorem where_v14 (W : Valuation τ sig (Elt Ideal)) :
    StableHlo.after hostOps0_1 W (Proc.devRef .tc main_v14)
      = select (W (Proc.devRef .tc main_v12)) (W (Proc.devRef .tc main_v13))
          (broadcastInDim S100000 ![] Facts₀.bcast_S_S100000 (id (W (Proc.devRef .tc main_cst_2)))) := by
  after_results
  rfl

/-- The normalisation factor per node: 1/√degree where the degree is positive, else 0. -/
theorem W2_v14 : W2 m ρ c (Proc.devRef .tc main_v14) = val_main_v14 (F := Ideal) (A m c main_arg2) := by
  refine (where_v14 (W1 m ρ c)).trans ?_
  rw [W1_v12 m ρ c, W1_v13 m ρ c, W1_cst_2 m ρ c]
  unfold val_main_v14 val_main_call0_v1 val_main_call0_v0
  rfl

theorem W2_v5 : W2 m ρ c (Proc.devRef .tc main_v5) = val_main_v5 (F := Ideal) (A m c main_arg2) :=
  (by keep_ops hostOps0_1 : W2 m ρ c (Proc.devRef .tc main_v5) = W1 m ρ c (Proc.devRef .tc main_v5)).trans (W1_v5 m ρ c)

theorem W2_v6 : W2 m ρ c (Proc.devRef .tc main_v6) = val_main_v6 (F := Ideal) (A m c main_arg2) :=
  (by keep_ops hostOps0_1 : W2 m ρ c (Proc.devRef .tc main_v6) = W1 m ρ c (Proc.devRef .tc main_v6)).trans (W1_v6 m ρ c)

set_option maxHeartbeats 3200000 in
/-- The edge weights: the factor at the source times the factor at the target. -/
theorem W3_v29 : W3 m ρ c (Proc.devRef .tc main_v29) = val_main_v29 (F := Ideal) (A m c main_arg2) := by
  show StableHlo.after hostOps0_2 (W2 m ρ c) (Proc.devRef .tc main_v29) = _
  have e0 := W2_v14 m ρ c
  have e1 := W2_v5 m ρ c
  have e2 := W2_v6 m ρ c
  generalize W2 m ρ c = W at e0 e1 e2 ⊢
  after_results
  rw [e0, e1, e2]
  rfl

theorem W4_v5 : W4 m ρ c (Proc.devRef .tc main_v5) = val_main_v5 (F := Ideal) (A m c main_arg2) := (W4_of_ne m ρ c main_v5 (by decide)).trans (W3_v5 m ρ c)
theorem W4_v6 : W4 m ρ c (Proc.devRef .tc main_v6) = val_main_v6 (F := Ideal) (A m c main_arg2) := (W4_of_ne m ρ c main_v6 (by decide)).trans (W3_v6 m ρ c)
theorem W4_v29 : W4 m ρ c (Proc.devRef .tc main_v29) = val_main_v29 (F := Ideal) (A m c main_arg2) := (W4_of_ne m ρ c main_v29 (by decide)).trans (W3_v29 m ρ c)

/-- Region 0 leaves x · W1. -/
theorem W4_v30 : W4 m ρ c (Proc.devRef .tc main_v30) = val_main_v30 (F := Ideal) (A m c main_arg0) (A m c main_arg4) := by
  refine (W4_arr m ρ c 2).trans ((Region0.final (V3 m ρ) c).trans ?_)
  unfold Region0.product
  rw [show V3 m ρ c main_arg0 = (A m c main_arg0) from W3_arg0 m ρ c, show V3 m ρ c main_arg4 = (A m c main_arg4) from W3_arg4 m ρ c]
  rfl

set_option maxHeartbeats 3200000 in
/-- The aggregated messages of layer 1. -/
theorem V5_v43 : V5 m ρ c main_v43 = val_main_v43 (F := Ideal) (A m c main_arg0) (A m c main_arg2) (A m c main_arg4) := by
  show StableHlo.after hostOps1 (W4 m ρ c) (Proc.devRef .tc main_v43) = _
  after_results
  rw [W4_v5 m ρ c, W4_v6 m ρ c, W4_v29 m ρ c, W4_v30 m ρ c]
  rfl

/-- The bias as a row: the kernel reshapes it, the reference broadcasts it along axis 1. -/
theorem V5_v44 : V5 m ρ c main_v44 = val_main_v44 (F := Ideal) (A m c main_arg5) := by
  show StableHlo.after hostOps1 (W4 m ρ c) (Proc.devRef .tc main_v44) = _
  after_results
  rw [W4_arg5 m ρ c]
  exact (Cert.LibBiasRow.bcastRow_eq_reshape _ _ _).symm

/-- Region 1 leaves the first layer's activations. -/
theorem W6_v45 : W6 m ρ c (Proc.devRef .tc main_v45) = val_main_v47 (F := Ideal) (A m c main_arg0) (A m c main_arg2) (A m c main_arg4) (A m c main_arg5) := by
  refine (W6_arr m ρ c 2).trans ((Region1.final (V5 m ρ) c).trans ?_)
  unfold Region1.biased
  rw [V5_v43 m ρ c, V5_v44 m ρ c]
  rfl

/-! ## Layer 2 -/

theorem W9_v51 : W9 m ρ c (Proc.devRef .tc main_v51) = val_main_v77 (F := Ideal) (A m c main_arg2) := by
  show StableHlo.after hostOps2_2 (StableHlo.after hostOps2_1 (StableHlo.after hostOps2 (W6 m ρ c))) (Proc.devRef .tc main_v51) = _
  after_results
  rw [W6_arg2 m ρ c]
  rfl

theorem W9_v52 : W9 m ρ c (Proc.devRef .tc main_v52) = val_main_v78 (F := Ideal) (A m c main_arg2) := by
  show StableHlo.after hostOps2_2 (StableHlo.after hostOps2_1 (StableHlo.after hostOps2 (W6 m ρ c))) (Proc.devRef .tc main_v52) = _
  after_results
  rw [W6_arg2 m ρ c]
  rfl

theorem W7_v58 : W7 m ρ c (Proc.devRef .tc main_v58) = val_main_v84 (F := Ideal) (A m c main_arg2) := by
  show StableHlo.after hostOps2 (W6 m ρ c) (Proc.devRef .tc main_v58) = _
  after_results
  rw [W6_arg2 m ρ c]
  rfl

theorem W7_v59 : W7 m ρ c (Proc.devRef .tc main_v59) = val_main_v85 (F := Ideal) (A m c main_arg2) := by
  show StableHlo.after hostOps2 (W6 m ρ c) (Proc.devRef .tc main_v59) = _
  after_results
  rw [W6_arg2 m ρ c]
  rfl

theorem W7_cst_12 : W7 m ρ c (Proc.devRef .tc main_cst_12) = val_main_cst_16 (F := Ideal) := by
  show StableHlo.after hostOps2 (W6 m ρ c) (Proc.devRef .tc main_cst_12) = _
  after_results
  rfl

theorem W7_v51 : W7 m ρ c (Proc.devRef .tc main_v51) = val_main_v77 (F := Ideal) (A m c main_arg2) := by
  show StableHlo.after hostOps2 (W6 m ρ c) (Proc.devRef .tc main_v51) = _
  after_results
  rw [W6_arg2 m ρ c]
  rfl

theorem W7_v52 : W7 m ρ c (Proc.devRef .tc main_v52) = val_main_v78 (F := Ideal) (A m c main_arg2) := by
  show StableHlo.after hostOps2 (W6 m ρ c) (Proc.devRef .tc main_v52) = _
  after_results
  rw [W6_arg2 m ρ c]
  rfl

/-- The `where` of layer 2 over any contents. -/
theorem where_v60 (W : Valuation τ sig (Elt Ideal)) :
    StableHlo.after hostOps2_1 W (Proc.devRef .tc main_v60)
      = select (W (Proc.devRef .tc main_v58)) (W (Proc.devRef .tc main_v59))
          (broadcastInDim S100000 ![] Facts₀.bcast_S_S100000 (id (W (Proc.devRef .tc main_cst_12)))) := by
  after_results
  rfl

theorem W8_v60 : W8 m ρ c (Proc.devRef .tc main_v60) = val_main_v86 (F := Ideal) (A m c main_arg2) := by
  refine (where_v60 (W7 m ρ c)).trans ?_
  rw [W7_v58 m ρ c, W7_v59 m ρ c, W7_cst_12 m ρ c]
  unfold val_main_v86 val_main_call3_v1 val_main_call3_v0
  rfl

theorem W8_v51 : W8 m ρ c (Proc.devRef .tc main_v51) = val_main_v77 (F := Ideal) (A m c main_arg2) :=
  (by keep_ops hostOps2_1 : W8 m ρ c (Proc.devRef .tc main_v51) = W7 m ρ c (Proc.devRef .tc main_v51)).trans (W7_v51 m ρ c)

theorem W8_v52 : W8 m ρ c (Proc.devRef .tc main_v52) = val_main_v78 (F := Ideal) (A m c main_arg2) :=
  (by keep_ops hostOps2_1 : W8 m ρ c (Proc.devRef .tc main_v52) = W7 m ρ c (Proc.devRef .tc main_v52)).trans (W7_v52 m ρ c)

set_option maxHeartbeats 3200000 in
/-- The edge weights, computed again for the second layer. -/
theorem W9_v75 : W9 m ρ c (Proc.devRef .tc main_v75) = val_main_v101 (F := Ideal) (A m c main_arg2) := by
  show StableHlo.after hostOps2_2 (W8 m ρ c) (Proc.devRef .tc main_v75) = _
  have e0 := W8_v60 m ρ c
  have e1 := W8_v51 m ρ c
  have e2 := W8_v52 m ρ c
  generalize W8 m ρ c = W at e0 e1 e2 ⊢
  after_results
  rw [e0, e1, e2]
  rfl

/-- The first layer's activations reach region 2 untouched. -/
theorem V9_v45 : V9 m ρ c main_v45 = val_main_v47 (F := Ideal) (A m c main_arg0) (A m c main_arg2) (A m c main_arg4) (A m c main_arg5) :=
  calc W9 m ρ c (Proc.devRef .tc main_v45)
    _ = W8 m ρ c (Proc.devRef .tc main_v45) := by keep_ops hostOps2_2
    _ = W7 m ρ c (Proc.devRef .tc main_v45) := by keep_ops hostOps2_1
    _ = W6 m ρ c (Proc.devRef .tc main_v45) := by keep_ops hostOps2
    _ = _ := W6_v45 m ρ c

/-- Region 2 leaves (first activations) · W2. -/
theorem W10_v76 : W10 m ρ c (Proc.devRef .tc main_v76) = val_main_v102 (F := Ideal) (A m c main_arg0) (A m c main_arg2) (A m c main_arg4) (A m c main_arg5) (A m c main_arg6) := by
  refine (W10_arr m ρ c 2).trans ((Region2.final (V9 m ρ) c).trans ?_)
  unfold Region2.product
  rw [V9_v45 m ρ c, V9_arg6 m ρ c]
  rfl

theorem W10_v51 : W10 m ρ c (Proc.devRef .tc main_v51) = val_main_v77 (F := Ideal) (A m c main_arg2) := (W10_of_ne m ρ c main_v51 (by decide)).trans (W9_v51 m ρ c)
theorem W10_v52 : W10 m ρ c (Proc.devRef .tc main_v52) = val_main_v78 (F := Ideal) (A m c main_arg2) := (W10_of_ne m ρ c main_v52 (by decide)).trans (W9_v52 m ρ c)
theorem W10_v75 : W10 m ρ c (Proc.devRef .tc main_v75) = val_main_v101 (F := Ideal) (A m c main_arg2) := (W10_of_ne m ρ c main_v75 (by decide)).trans (W9_v75 m ρ c)

set_option maxHeartbeats 3200000 in
/-- The aggregated messages of layer 2. -/
theorem V11_v89 : V11 m ρ c main_v89 = val_main_v115 (F := Ideal) (A m c main_arg0) (A m c main_arg2) (A m c main_arg4) (A m c main_arg5) (A m c main_arg6) := by
  show StableHlo.after hostOps3 (W10 m ρ c) (Proc.devRef .tc main_v89) = _
  after_results
  rw [W10_v51 m ρ c, W10_v52 m ρ c, W10_v75 m ρ c, W10_v76 m ρ c]
  rfl

theorem V11_v90 : V11 m ρ c main_v90 = val_main_v116 (F := Ideal) (A m c main_arg7) := by
  show StableHlo.after hostOps3 (W10 m ρ c) (Proc.devRef .tc main_v90) = _
  after_results
  rw [W10_arg7 m ρ c]
  exact (Cert.LibBiasRow.bcastRow_eq_reshape _ _ _).symm

/-- Region 3 leaves the second layer's activations. -/
theorem W12_v91 : W12 m ρ c (Proc.devRef .tc main_v91) = val_main_v119 (F := Ideal) (A m c main_arg0) (A m c main_arg2) (A m c main_arg4) (A m c main_arg5) (A m c main_arg6) (A m c main_arg7) := by
  refine (W12_arr m ρ c 2).trans ((Region3.final (V11 m ρ) c).trans ?_)
  unfold Region3.biased
  rw [V11_v89 m ρ c, V11_v90 m ρ c]
  rfl

/-! ## The scored edges -/

set_option maxHeartbeats 3200000 in
/-- The activations gathered at the scored edges' first endpoints. -/
theorem V13_v100 : V13 m ρ c main_v100 = val_main_v152 (F := Ideal) (A m c main_arg0) (A m c main_arg2) (A m c main_arg3) (A m c main_arg4) (A m c main_arg5) (A m c main_arg6) (A m c main_arg7) := by
  show StableHlo.after hostOps4 (W12 m ρ c) (Proc.devRef .tc main_v100) = _
  after_results
  rw [W12_v91 m ρ c, W12_arg3 m ρ c]
  rfl

set_option maxHeartbeats 3200000 in
/-- … and at their second endpoints. -/
theorem V13_v109 : V13 m ρ c main_v109 = val_main_v161 (F := Ideal) (A m c main_arg0) (A m c main_arg2) (A m c main_arg3) (A m c main_arg4) (A m c main_arg5) (A m c main_arg6) (A m c main_arg7) := by
  show StableHlo.after hostOps4 (W12 m ρ c) (Proc.devRef .tc main_v109) = _
  after_results
  rw [W12_v91 m ρ c, W12_arg3 m ρ c]
  rfl

theorem V13_v110 : V13 m ρ c main_v110 = val_main_v164 (F := Ideal) (A m c main_arg13) := by
  show StableHlo.after hostOps4 (W12 m ρ c) (Proc.devRef .tc main_v110) = _
  after_results
  rw [W12_arg13 m ρ c]
  exact (Cert.LibBiasRow.bcastRow_eq_reshape _ _ _).symm

theorem V13_v111 : V13 m ρ c main_v111 = val_main_v169 (F := Ideal) (A m c main_arg15) := by
  show StableHlo.after hostOps4 (W12 m ρ c) (Proc.devRef .tc main_v111) = _
  after_results
  rw [W12_arg15 m ρ c]
  exact (Cert.LibBiasRow.bcastRow_eq_reshape _ _ _).symm

theorem V13_v112 : V13 m ρ c main_v112 = val_main_v174 (F := Ideal) (A m c main_arg17) := by
  show StableHlo.after hostOps4 (W12 m ρ c) (Proc.devRef .tc main_v112) = _
  after_results
  rw [W12_arg17 m ρ c]
  exact (Cert.LibBiasRow.bcastRow_eq_reshape _ _ _).symm

theorem V13_v113 : V13 m ρ c main_v113 = val_main_v179 (F := Ideal) (A m c main_arg19) := by
  show StableHlo.after hostOps4 (W12 m ρ c) (Proc.devRef .tc main_v113) = _
  after_results
  rw [W12_arg19 m ρ c]
  exact (Cert.LibBiasRow.bcastRow_eq_reshape _ _ _).symm

/-- THE RESULT: region 4 leaves the reference's result stage of the arguments. -/
theorem result : W14 m ρ c (Proc.devRef .tc main_v114)
    = val_main_v182 (F := Ideal) (A m c main_arg0) (A m c main_arg2) (A m c main_arg3) (A m c main_arg4) (A m c main_arg5) (A m c main_arg6) (A m c main_arg7) (A m c main_arg12) (A m c main_arg13) (A m c main_arg14) (A m c main_arg15) (A m c main_arg16) (A m c main_arg17) (A m c main_arg18) (A m c main_arg19) := by
  refine (W14_arr m ρ c 10).trans ((Region4.final (V13 m ρ) c).trans ?_)
  simp only [Region4.score, Region4.hidden3, Region4.hidden2, Region4.hidden1, Region4.joined, Region4.row128, Region4.zero128, Region4.zero1]
  rw [V13_v100 m ρ c, V13_v109 m ρ c, V13_arg12 m ρ c, V13_v110 m ρ c, V13_arg14 m ρ c, V13_v111 m ρ c, V13_arg16 m ρ c, V13_v112 m ρ c,
    V13_arg18 m ρ c, V13_v113 m ρ c]
  rfl

end Cert.KernelIdeal.Walk

end
-- ==== Proof.lean ====
/-
  Two graph-convolution layers and a four-layer scoring network: the Pallas kernel against its jnp reference,
  equal over the extended reals.

  Both programs compute, for node features x, edges (source, target) and scored edges (i, j):
    layer(h, W, b) = max(0, b + ∑ over edges and self-loops into each node of d(source)·d(target) · (h·W)(source)),
    d = 1/√degree (degree counted with the self-loop, so never zero),
    x₁ = layer(x, W₁, b₁), x₂ = layer(x₁, W₂, b₂),
    y = the four dense layers max(0, · W + b) applied to [x₂(i), x₂(j)] side by side.
  The kernel runs the three dense pieces (h·W; add the bias and take the positive part; the scoring network) as
  Pallas regions over blocks of 10000 rows, and leaves the degree normalisation, gathers and scatter-adds to the
  host, where they are the very operations the reference applies. A block of rows of a product is that block of
  rows times the right factor, the other steps act entry by entry or row by row, and the blocks tile the arrays;
  so each region leaves the reference's whole-array stage, and the two results are one function of the
  arguments. The reference also updates edge features that its result never reads; they do not enter its result
  term. No sum is reordered and no factor moved across a sum, so nothing requires the inputs finite: the
  precondition is not opened.

  The three frames: the two kernels' are the generated frame certificates; the reference's is its run with the
  result dropped. The idealization rewrote nothing, so `preserves` is trivial.
-/
import proofs.«152535_j412316860634_1_alg».proof.Defs
import proofs.«152535_j412316860634_1_alg».proof.Proof.Gen.Kernel
import proofs.«152535_j412316860634_1_alg».proof.Proof.Gen.Kernel.Skeleton
import proofs.«152535_j412316860634_1_alg».proof.Proof.Gen.Kernel.Launch
import proofs.«152535_j412316860634_1_alg».proof.Proof.Gen.Kernel.Points
import proofs.«152535_j412316860634_1_alg».proof.Proof.Gen.Kernel.Frame
import proofs.«152535_j412316860634_1_alg».proof.Proof.Gen.KernelIdeal
import proofs.«152535_j412316860634_1_alg».proof.Proof.Gen.KernelIdeal.Skeleton
import proofs.«152535_j412316860634_1_alg».proof.Proof.Gen.KernelIdeal.Launch
import proofs.«152535_j412316860634_1_alg».proof.Proof.Gen.KernelIdeal.Points
import proofs.«152535_j412316860634_1_alg».proof.Proof.Gen.KernelIdeal.Frame
import proofs.«152535_j412316860634_1_alg».proof.Proof.Gen.ReferenceIdeal
import proofs.«152535_j412316860634_1_alg».proof.Proof.Gen.Pre_finite_inputs
import proofs.«152535_j412316860634_1_alg».proof.Proof.RunResult
import proofs.«152535_j412316860634_1_alg».proof.Proof.RefRun
import proofs.«152535_j412316860634_1_alg».proof.Proof.RefRead
import proofs.«152535_j412316860634_1_alg».proof.Proof.Walk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's result stage of the kernel's arguments: the kernel because its last
    boundary holds it, the reference because its run's term is that stage of its own arguments, which agree. -/
theorem algebraic : Cert.algebraic_KernelIdeal_ReferenceIdeal := by
  intro m ρ m' ρ' _ hagree
  refine ⟨fun c => Cert.KernelIdeal.Gen.W14 m ρ c (Proc.devRef .tc Cert.KernelIdeal.main_v114),
    Cert.KernelIdeal.Result.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19⟩ := hagree c
  rw [Cert.ReferenceIdeal.ReadP.val_main_v182_eq, h0, h2, h3, h4, h5, h6, h7, h12, h13, h14, h15, h16, h17, h18, h19]
  exact (Cert.KernelIdeal.Walk.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
